-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x15 : Shape := ⟨2, ![524288, 15]⟩
abbrev S264x128 : Shape := ⟨2, ![264, 128]⟩
abbrev S_ : Shape := ⟨0, ![]⟩
abbrev S136x95 : Shape := ⟨2, ![136, 95]⟩

class Facts : Prop where
  bcast_S_S524288x15 : S_.BroadcastsInDim S524288x15 (![] : Fin 0 → Fin S524288x15.rank)
  reducesTo_S524288x15_S_d0_1 : S524288x15.ReducesTo [0, 1] S_
  h_S_ : 0 < S_.numel
  bcast_S_S264x128 : S_.BroadcastsInDim S264x128 (![] : Fin 0 → Fin S264x128.rank)
  reducesTo_S264x128_S_d0_1 : S264x128.ReducesTo [0, 1] S_
  slices_S264x128_S136x95_128_33 : S264x128.Slices ![128, 33] S136x95
  bcast_S_S136x95 : S_.BroadcastsInDim S136x95 (![] : Fin 0 → Fin S136x95.rank)
  reducesTo_S136x95_S_d0_1 : S136x95.ReducesTo [0, 1] S_

variable [Facts]

def fn {F : FTy → Type} [FloatOps F] (main_arg0 : FVec F S524288x15 .f32) (main_arg1 : FVec F S264x128 .f32) : IVec S_ 1 :=
  let main_v0 : FVec F S524288x15 .f32 := Host.absf main_arg0
  let main_cst : FVec F S_ .f32 := constant S_ .f32 0x7F800000#32
  let main_v1 : FVec F S524288x15 .f32 := broadcastInDim S524288x15 ![] bcast_S_S524288x15 main_cst
  let main_v2 : IVec S524288x15 1 := cmpf .olt main_v0 main_v1
  let main_c : IVec S_ 1 := constantI S_ 1 1#1
  let main_v3 : IVec S_ 1 := (fun x v => Host.reduce IntOp.andi x v reducesTo_S524288x15_S_d0_1 h_S_) main_v2 main_c
  let main_v4 : FVec F S264x128 .f32 := Host.absf main_arg1
  let main_cst_0 : FVec F S_ .f32 := constant S_ .f32 0x7F800000#32
  let main_v5 : FVec F S264x128 .f32 := broadcastInDim S264x128 ![] bcast_S_S264x128 main_cst_0
  let main_v6 : IVec S264x128 1 := cmpf .olt main_v4 main_v5
  let main_c_1 : IVec S_ 1 := constantI S_ 1 1#1
  let main_v7 : IVec S_ 1 := (fun x v => Host.reduce IntOp.andi x v reducesTo_S264x128_S_d0_1 h_S_) main_v6 main_c_1
  let main_v8 : IVec S_ 1 := andi main_v3 main_v7
  let main_v9 : FVec F S136x95 .f32 := (extractStridedSlice S136x95 ![128, 33] · slices_S264x128_S136x95_128_33) main_arg1
  let main_cst_2 : FVec F S_ .f32 := constant S_ .f32 0x00000000#32
  let main_v10 : FVec F S136x95 .f32 := broadcastInDim S136x95 ![] bcast_S_S136x95 main_cst_2
  let main_v11 : IVec S136x95 1 := cmpf .oeq main_v9 main_v10
  let main_c_3 : IVec S_ 1 := constantI S_ 1 1#1
  let main_v12 : IVec S_ 1 := (fun x v => Host.reduce IntOp.andi x v reducesTo_S136x95_S_d0_1 h_S_) main_v11 main_c_3
  let main_v13 : IVec S_ 1 := andi main_v8 main_v12
  main_v13
-- ==== Kernel.lean ====
abbrev S524288x15 : Shape := ⟨2, ![524288, 15]⟩
abbrev S264x128 : Shape := ⟨2, ![264, 128]⟩
abbrev S15x524288 : Shape := ⟨2, ![15, 524288]⟩
abbrev S16x1x32768 : Shape := ⟨3, ![16, 1, 32768]⟩
abbrev S15x32768 : Shape := ⟨2, ![15, 32768]⟩
abbrev S1x1x32768 : Shape := ⟨3, ![1, 1, 32768]⟩
abbrev S1x32768 : Shape := ⟨2, ![1, 32768]⟩
abbrev S16x32768 : Shape := ⟨2, ![16, 32768]⟩
abbrev S40x16 : Shape := ⟨2, ![40, 16]⟩
abbrev S40x40 : Shape := ⟨2, ![40, 40]⟩
abbrev S1x40 : Shape := ⟨2, ![1, 40]⟩
abbrev S40x32768 : Shape := ⟨2, ![40, 32768]⟩
abbrev S524288 : Shape := ⟨1, ![524288]⟩

abbrev nBuf : Space → Nat
  | .hbm => 5
  | .vmem => 5
  | .smem => 0
  | _ => 0

abbrev bufTy : (tb : Table) → Fin (tcTables nBuf tb) → BufTy
  | .hbm, ⟨0, _⟩ => ⟨S524288x15, .f32⟩
  | .hbm, ⟨1, _⟩ => ⟨S264x128, .f32⟩
  | .hbm, ⟨2, _⟩ => ⟨S15x524288, .f32⟩
  | .hbm, ⟨3, _⟩ => ⟨S16x1x32768, .f32⟩
  | .hbm, ⟨4, _⟩ => ⟨S524288, .f32⟩
  | .local _ .vmem, ⟨0, _⟩ => ⟨S15x32768, .f32⟩
  | .local _ .vmem, ⟨1, _⟩ => ⟨S15x32768, .f32⟩
  | .local _ .vmem, ⟨2, _⟩ => ⟨S264x128, .f32⟩
  | .local _ .vmem, ⟨3, _⟩ => ⟨S1x1x32768, .f32⟩
  | .local _ .vmem, ⟨4, _⟩ => ⟨S1x1x32768, .f32⟩
  | _, _ => ⟨S524288x15, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S15x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S264x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x32768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S524288x15_S15x524288_1_0 : S524288x15.Transposes [1, 0] S15x524288
  inb_S15x32768_S15x32768_0_0 : ∀ a, (![0, 0] : Fin 2 → Nat) a + S15x32768.size a ≤ S15x32768.size a
  h_S15x32768 : 0 < S15x32768.numel
  shapeCasts_S15x32768_S15x32768 : S15x32768.ShapeCasts S15x32768
  concatenates_S15x32768_S1x32768_S16x32768_d0 : Shape.Concatenates [S15x32768, S1x32768] S16x32768 0
  inb_S264x128_S40x16_0_0 : ∀ a, (![0, 0] : Fin 2 → Nat) a + S40x16.size a ≤ S264x128.size a
  h_S40x16 : 0 < S40x16.numel
  inb_S264x128_S40x40_128_0 : ∀ a, (![128, 0] : Fin 2 → Nat) a + S40x40.size a ≤ S264x128.size a
  h_S40x40 : 0 < S40x40.numel
  inb_S264x128_S1x40_256_0 : ∀ a, (![256, 0] : Fin 2 → Nat) a + S1x40.size a ≤ S264x128.size a
  h_S1x40 : 0 < S1x40.numel
  shapeCasts_S1x32768_S1x1x32768 : S1x32768.ShapeCasts S1x1x32768
  inb_S1x1x32768_S1x1x32768_0_0_0 : ∀ a, (![0, 0, 0] : Fin 3 → Nat) a + S1x1x32768.size a ≤ S1x1x32768.size a
  h_S1x1x32768 : 0 < S1x1x32768.numel
  shapeCasts_S16x1x32768_S524288 : S16x1x32768.ShapeCasts S524288
  dot_S40x16_S16x32768_S40x32768_1_0_0_1_n_n_wf : DotDims.WF S40x16 S16x32768 S40x32768 [1] [0] [0] [1] [] []
  dot_S40x40_S40x32768_S40x32768_1_0_0_1_n_n_wf : DotDims.WF S40x40 S40x32768 S40x32768 [1] [0] [0] [1] [] []
  dot_S1x40_S40x32768_S1x32768_1_0_0_1_n_n_wf : DotDims.WF S1x40 S40x32768 S1x32768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S15x32768.size a ≤ S15x524288.size a
  hwx0_0 : ∀ i : grid0.Coords, EltTy.bits .f32 = 32 ∨ (Rect.block (s := S15x524288) S15x32768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S264x128.size a ≤ S264x128.size a
  hwx0_1 : ∀ i : grid0.Coords, EltTy.bits .f32 = 32 ∨ (Rect.block (s := S264x128) S264x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x32768.size a ≤ S16x1x32768.size a
  hwx0_2 : ∀ i : grid0.Coords, EltTy.bits .f32 = 32 ∨ (Rect.block (s := S16x1x32768) S1x1x32768.size (cc0_transform_2 i) (hinb0_2 i)).WholeWords (EltTy.packing .f32)

variable [Facts₀]

def dot_S40x16_S16x32768_S40x32768_1_0_0_1_n_n : DotDims S40x16 S16x32768 S40x32768 where
  lhsContracting := [1]
  rhsContracting := [0]
  lhsNonContracting := [0]
  rhsNonContracting := [1]
  lhsBatch := []
  rhsBatch := []
  wf := dot_S40x16_S16x32768_S40x32768_1_0_0_1_n_n_wf
def dot_S40x40_S40x32768_S40x32768_1_0_0_1_n_n : DotDims S40x40 S40x32768 S40x32768 where
  lhsContracting := [1]
  rhsContracting := [0]
  lhsNonContracting := [0]
  rhsNonContracting := [1]
  lhsBatch := []
  rhsBatch := []
  wf := dot_S40x40_S40x32768_S40x32768_1_0_0_1_n_n_wf
def dot_S1x40_S40x32768_S1x32768_1_0_0_1_n_n : DotDims S1x40 S40x32768 S1x32768 where
  lhsContracting := [1]
  rhsContracting := [0]
  lhsNonContracting := [0]
  rhsNonContracting := [1]
  lhsBatch := []
  rhsBatch := []
  wf := dot_S1x40_S40x32768_S1x32768_1_0_0_1_n_n_wf

abbrev win0_0 : Pipeline.Window sig grid0 :=
  Pipeline.Window.ofSpec (Memref.whole main_v0) S15x32768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S264x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1x32768.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S524288x15 : Shape := ⟨2, ![524288, 15]⟩
abbrev S264x128 : Shape := ⟨2, ![264, 128]⟩
abbrev S_ : Shape := ⟨0, ![]⟩
abbrev S16x524288 : Shape := ⟨2, ![16, 524288]⟩
abbrev S1 : Shape := ⟨1, ![1]⟩
abbrev S524288 : Shape := ⟨1, ![524288]⟩
abbrev S15x524288 : Shape := ⟨2, ![15, 524288]⟩
abbrev S8x524288 : Shape := ⟨2, ![8, 524288]⟩
abbrev S1x524288 : Shape := ⟨2, ![1, 524288]⟩
abbrev S16x2048 : Shape := ⟨2, ![16, 2048]⟩
abbrev S8x2048 : Shape := ⟨2, ![8, 2048]⟩
abbrev S128x16 : Shape := ⟨2, ![128, 16]⟩
abbrev S128x128 : Shape := ⟨2, ![128, 128]⟩
abbrev S8x128 : Shape := ⟨2, ![8, 128]⟩
abbrev S128x2048 : Shape := ⟨2, ![128, 2048]⟩

abbrev nBuf : Space → Nat
  | .hbm => 16
  | .vmem => 5
  | .smem => 0
  | _ => 0

abbrev bufTy : (tb : Table) → Fin (tcTables nBuf tb) → BufTy
  | .hbm, ⟨0, _⟩ => ⟨S524288x15, .f32⟩
  | .hbm, ⟨1, _⟩ => ⟨S264x128, .f32⟩
  | .hbm, ⟨2, _⟩ => ⟨S_, .f32⟩
  | .hbm, ⟨3, _⟩ => ⟨S16x524288, .f32⟩
  | .hbm, ⟨4, _⟩ => ⟨S_, .i32⟩
  | .hbm, ⟨5, _⟩ => ⟨S1, .i32⟩
  | .hbm, ⟨6, _⟩ => ⟨S_, .f32⟩
  | .hbm, ⟨7, _⟩ => ⟨S524288, .f32⟩
  | .hbm, ⟨8, _⟩ => ⟨S16x524288, .f32⟩
  | .hbm, ⟨9, _⟩ => ⟨S15x524288, .f32⟩
  | .hbm, ⟨10, _⟩ => ⟨S_, .i32⟩
  | .hbm, ⟨11, _⟩ => ⟨S1, .i32⟩
  | .hbm, ⟨12, _⟩ => ⟨S16x524288, .f32⟩
  | .hbm, ⟨13, _⟩ => ⟨S8x524288, .f32⟩
  | .hbm, ⟨14, _⟩ => ⟨S1x524288, .f32⟩
  | .hbm, ⟨15, _⟩ => ⟨S524288, .f32⟩
  | .local _ .vmem, ⟨0, _⟩ => ⟨S16x2048, .f32⟩
  | .local _ .vmem, ⟨1, _⟩ => ⟨S16x2048, .f32⟩
  | .local _ .vmem, ⟨2, _⟩ => ⟨S264x128, .f32⟩
  | .local _ .vmem, ⟨3, _⟩ => ⟨S8x2048, .f32⟩
  | .local _ .vmem, ⟨4, _⟩ => ⟨S8x2048, .f32⟩
  | _, _ => ⟨S524288x15, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_call0_c : Ref sig .tc := ⟨.hbm, 4, rfl⟩
abbrev main_call0_v1 : Ref sig .tc := ⟨.hbm, 5, rfl⟩
abbrev main_call0_cst_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_c_1 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_v0 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S16x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S264x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S16x524288 : S_.BroadcastsInDim S16x524288 (![] : Fin 0 → Fin S16x524288.rank)
  bcast_S_S1 : S_.BroadcastsInDim S1 (![] : Fin 0 → Fin S1.rank)
  bcast_S_S524288 : S_.BroadcastsInDim S524288 (![] : Fin 0 → Fin S524288.rank)
  transposes_S524288x15_S15x524288_1_0 : S524288x15.Transposes [1, 0] S15x524288
  slices_S8x524288_S1x524288_0_0 : S8x524288.Slices ![0, 0] S1x524288
  shapeCasts_S1x524288_S524288 : S1x524288.ShapeCasts S524288
  inb_S16x2048_S16x2048_0_0 : ∀ a, (![0, 0] : Fin 2 → Nat) a + S16x2048.size a ≤ S16x2048.size a
  h_S16x2048 : 0 < S16x2048.numel
  shapeCasts_S16x2048_S16x2048 : S16x2048.ShapeCasts S16x2048
  inb_S264x128_S128x16_0_0 : ∀ a, (![0, 0] : Fin 2 → Nat) a + S128x16.size a ≤ S264x128.size a
  h_S128x16 : 0 < S128x16.numel
  inb_S264x128_S128x128_128_0 : ∀ a, (![128, 0] : Fin 2 → Nat) a + S128x128.size a ≤ S264x128.size a
  h_S128x128 : 0 < S128x128.numel
  inb_S264x128_S8x128_256_0 : ∀ a, (![256, 0] : Fin 2 → Nat) a + S8x128.size a ≤ S264x128.size a
  h_S8x128 : 0 < S8x128.numel
  inb_S8x2048_S8x2048_0_0 : ∀ a, (![0, 0] : Fin 2 → Nat) a + S8x2048.size a ≤ S8x2048.size a
  h_S8x2048 : 0 < S8x2048.numel
  scatter_S16x524288_S1_S524288_0_0_0_0_wf : ScatterDims.WF S16x524288 S1 S524288 [0] [0] [0] 0
  scatter_S16x524288_S1_S15x524288_01_n_0_0_wf : ScatterDims.WF S16x524288 S1 S15x524288 [0, 1] [] [0] 0
  dot_S128x16_S16x2048_S128x2048_1_0_0_1_n_n_wf : DotDims.WF S128x16 S16x2048 S128x2048 [1] [0] [0] [1] [] []
  dot_S128x128_S128x2048_S128x2048_1_0_0_1_n_n_wf : DotDims.WF S128x128 S128x2048 S128x2048 [1] [0] [0] [1] [] []
  dot_S8x128_S128x2048_S8x2048_1_0_0_1_n_n_wf : DotDims.WF S8x128 S128x2048 S8x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x2048.size a ≤ S16x524288.size a
  hwx0_0 : ∀ i : grid0.Coords, EltTy.bits .f32 = 32 ∨ (Rect.block (s := S16x524288) S16x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S264x128.size a ≤ S264x128.size a
  hwx0_1 : ∀ i : grid0.Coords, EltTy.bits .f32 = 32 ∨ (Rect.block (s := S264x128) S264x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x2048.size a ≤ S8x524288.size a
  hwx0_2 : ∀ i : grid0.Coords, EltTy.bits .f32 = 32 ∨ (Rect.block (s := S8x524288) S8x2048.size (cc0_transform_2 i) (hinb0_2 i)).WholeWords (EltTy.packing .f32)

variable [Facts₀]

def scatter_S16x524288_S1_S524288_0_0_0_0 : ScatterDims S16x524288 S1 S524288 where
  updateWindowDims := [0]
  insertedWindowDims := [0]
  scatterDimsToOperandDims := [0]
  indexVectorDim := 0
  wf := scatter_S16x524288_S1_S524288_0_0_0_0_wf
def scatter_S16x524288_S1_S15x524288_01_n_0_0 : ScatterDims S16x524288 S1 S15x524288 where
  updateWindowDims := [0, 1]
  insertedWindowDims := []
  scatterDimsToOperandDims := [0]
  indexVectorDim := 0
  wf := scatter_S16x524288_S1_S15x524288_01_n_0_0_wf
def dot_S128x16_S16x2048_S128x2048_1_0_0_1_n_n : DotDims S128x16 S16x2048 S128x2048 where
  lhsContracting := [1]
  rhsContracting := [0]
  lhsNonContracting := [0]
  rhsNonContracting := [1]
  lhsBatch := []
  rhsBatch := []
  wf := dot_S128x16_S16x2048_S128x2048_1_0_0_1_n_n_wf
def dot_S128x128_S128x2048_S128x2048_1_0_0_1_n_n : DotDims S128x128 S128x2048 S128x2048 where
  lhsContracting := [1]
  rhsContracting := [0]
  lhsNonContracting := [0]
  rhsNonContracting := [1]
  lhsBatch := []
  rhsBatch := []
  wf := dot_S128x128_S128x2048_S128x2048_1_0_0_1_n_n_wf
def dot_S8x128_S128x2048_S8x2048_1_0_0_1_n_n : DotDims S8x128 S128x2048 S8x2048 where
  lhsContracting := [1]
  rhsContracting := [0]
  lhsNonContracting := [0]
  rhsNonContracting := [1]
  lhsBatch := []
  rhsBatch := []
  wf := dot_S8x128_S128x2048_S8x2048_1_0_0_1_n_n_wf

abbrev win0_0 : Pipeline.Window sig grid0 :=
  Pipeline.Window.ofSpec (Memref.whole main_call0_v6) S16x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S264x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v7) S8x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== Proof.LibMatmul2.lean ====
/-
  A plain matrix product read at an index.

  A `tpu.matmul` with dimension numbers "contract axis 1 of the left operand with axis 0 of the right, no batch axes"
  of an [A, K] and a [K, B] matrix into the zero accumulator is, at the ideal values and at output position (p, q),
  the sum over k < K of left(p, k) · right(k, q): the contraction shape has the one axis of extent K, and the operand
  indices at output (p, q) and contraction position k are (p, k) and (k, q).
-/
import Idealize.ShloMosaic.PureOps.Ideal.Laws
import Idealize.ShloMosaic.Lib.ValueIdx

noncomputable section

namespace Cert.Lib

open Idealize.ShloMosaic Idealize.ShloMosaic.ValueIdx

variable {A K B : ℕ} {φ₁ φ₂ : FTy}

/-- The dimension numbers of a plain matrix product: rows × contraction times contraction × columns. -/
abbrev plain2 (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ := ⟨[1], [0], [0], [1], [], [], wf⟩

/-- Its contraction shape has one axis, -/
theorem plain2_rank (wf : DotDims.WF ⟨2, ![A, K]⟩ ⟨2, ![K, B]⟩ ⟨2, ![A, B]⟩ [1] [0] [0] [1] [] []) :
    (plain2 wf).contr.rank = 1 := rfl

/-- of extent `K`. -/
theorem plain2_size (wf : DotDims.WF ⟨2, ![A, K]⟩ ⟨2, ![K, B]⟩ ⟨2, ![A, B]⟩ [1] [0] [0] [1] [] []) :
    (plain2 wf).contr.size ⟨0, by rw [plain2_rank]; exact Nat.one_pos⟩ = K := rfl

/-- The product into the zero accumulator at (p, q) is `∑ k, l (p, k) * r (k, q)`. -/
theorem matmul2_zero_apply (wf : DotDims.WF ⟨2, ![A, K]⟩ ⟨2, ![K, B]⟩ ⟨2, ![A, B]⟩ [1] [0] [0] [1] [] [])
    (l : FVec Ideal ⟨2, ![A, K]⟩ φ₁) (r : FVec Ideal ⟨2, ![K, B]⟩ φ₂) (p : Fin A) (q : Fin B) :
    matmul (plain2 wf) none l r (constant ⟨2, ![A, B]⟩ .f32 0x00000000#32) (ix2 p q)
      = ∑ k : Fin K, l (ix2 p k) * r (ix2 k q) := by
  refine (Ideal.matmul_constant_zero_apply (plain2 wf) none l r (ix2 p q)).trans ?_
  refine (Equiv.sum_comp (contrEquiv1 (plain2 wf) K (plain2_rank wf) (plain2_size wf)).symm _).symm.trans ?_
  refine Finset.sum_congr rfl fun k _ => ?_
  have hk := contrEquiv1_symm_val (plain2 wf) K (plain2_rank wf) (plain2_size wf) k
  have hl : (plain2 wf).lhsIdx (ix2 p q) ((contrEquiv1 (plain2 wf) K (plain2_rank wf) (plain2_size wf)).symm k) = ix2 p k := by
    funext a; apply Fin.ext
    match a with
    | ⟨0, _⟩ => simp [DotDims.lhsIdx]; rfl
    | ⟨1, _⟩ => exact (DotDims.lhsIdx_val_of_single (plain2 wf) (cl := 1) rfl (ix2 p q) _).trans hk
  have hr : (plain2 wf).rhsIdx (ix2 p q) ((contrEquiv1 (plain2 wf) K (plain2_rank wf) (plain2_size wf)).symm k) = ix2 k q := by
    funext a; apply Fin.ext
    match a with
    | ⟨0, _⟩ => exact (DotDims.rhsIdx_val_of_single (plain2 wf) (cr := 0) rfl (ix2 p q) _).trans hk
    | ⟨1, _⟩ => simp [DotDims.rhsIdx]; rfl
  show l _ * r _ = _
  rw [hl, hr]

end Cert.Lib

end
-- ==== Proof.LibMlp3.lean ====
/-
  Three matrix products with a rectification after the first two, read at an index.

  With w1 : [H, 16], w2 : [H, H], w3 : [R, H] and a block of columns xa : [16, N], the value

    w3 · max (w2 · max (w1 · xa) z) z        (each product into the zero accumulator, z splatted)

  at row p and column q is, at the ideal values,

    ∑ k < H, w3 (p, k) · max (∑ l < H, w2 (k, l) · max (∑ i < 16, w1 (l, i) · xa (i, q)) z) z :

  each product is a plain sum over its contraction index, the maximum and the splat are pointwise, and column q of the
  result depends on column q of xa only.
-/
import proofs.«144147_g2000302644600430_pallasbulk_23_7_alg».proof.Proof.LibMatmul2

noncomputable section

namespace Cert.Lib

open Idealize.ShloMosaic Idealize.ShloMosaic.ValueIdx

variable {H N R : ℕ}

theorem mlp3_apply
    (wf1 : DotDims.WF ⟨2, ![H, 16]⟩ ⟨2, ![16, N]⟩ ⟨2, ![H, N]⟩ [1] [0] [0] [1] [] [])
    (wf2 : DotDims.WF ⟨2, ![H, H]⟩ ⟨2, ![H, N]⟩ ⟨2, ![H, N]⟩ [1] [0] [0] [1] [] [])
    (wf3 : DotDims.WF ⟨2, ![R, H]⟩ ⟨2, ![H, N]⟩ ⟨2, ![R, N]⟩ [1] [0] [0] [1] [] [])
    (w1 : FVec Ideal ⟨2, ![H, 16]⟩ .f32) (w2 : FVec Ideal ⟨2, ![H, H]⟩ .f32) (w3 : FVec Ideal ⟨2, ![R, H]⟩ .f32)
    (xa : FVec Ideal ⟨2, ![16, N]⟩ .f32) (z : Ideal .f32) (p : Fin R) (q : Fin N) :
    matmul (plain2 wf3) none w3
        (maximumf (matmul (plain2 wf2) none w2
            (maximumf (matmul (plain2 wf1) none w1 xa (constant ⟨2, ![H, N]⟩ .f32 0x00000000#32)) (broadcast ⟨2, ![H, N]⟩ z))
            (constant ⟨2, ![H, N]⟩ .f32 0x00000000#32)) (broadcast ⟨2, ![H, N]⟩ z))
        (constant ⟨2, ![R, N]⟩ .f32 0x00000000#32) (ix2 p q)
      = ∑ k : Fin H, w3 (ix2 p k) * max (∑ l : Fin H, w2 (ix2 k l) * max (∑ i : Fin 16, w1 (ix2 l i) * xa (ix2 i q)) z) z := by
  refine (matmul2_zero_apply wf3 w3 _ p q).trans ?_
  refine Finset.sum_congr rfl fun k _ => congrArg (w3 (ix2 p k) * ·) ?_
  refine (maximumf_apply _ _ (ix2 k q)).trans ?_
  refine congrArg (max · z) ?_
  refine (matmul2_zero_apply wf2 w2 _ k q).trans ?_
  refine Finset.sum_congr rfl fun l _ => congrArg (w2 (ix2 k l) * ·) ?_
  refine (maximumf_apply _ _ (ix2 l q)).trans ?_
  refine congrArg (max · z) ?_
  exact matmul2_zero_apply wf1 w1 xa l q

end Cert.Lib

end
-- ==== Proof.Spec.lean ====
/-
  The function both programs compute, stated once over the argument arrays.

  A sample is a row `x q` of fifteen features; it is extended by a constant rider entry `one` (position 15), through which
  the packed weight array carries the biases. The packed array `S` (264 rows of 128 lanes) holds three transposed weight
  matrices: rows 0.. the first layer (16 lanes used), rows 128.. the second layer, row 256 the output layer. With hidden
  width `H` (the number of hidden units summed over in the second and third layers):

    hid1 l   = max (Σ_{i<16} S[l, i] · xa i) z
    hid2 k   = max (Σ_{l<H} S[128 + k, l] · hid1 l) z
    out      = Σ_{k<H} S[256, k] · hid2 k

  One program sums over H = 40 hidden units, the other over all H = 128 lanes. When the lanes from 33 on of the rows from
  128 on are zero (the padding beyond the 33 augmented hidden units), every summand with l ≥ 33 or k ≥ 33 is a product
  with zero, which is zero on the extended reals whatever the other factor, so both widths give the sum over the first 33
  units: `out_width`. No finiteness is used: only that zero times anything is zero, and that addition is commutative and
  associative.
-/
import Idealize.ShloMosaic.PureOps.Ideal
import Idealize.ShloMosaic.Lib.ValueIdx

noncomputable section

namespace Cert.Mlp

open Idealize.ShloMosaic Idealize.ShloMosaic.ValueIdx

/-- Indices of the packed weight array, 264 rows of 128 lanes. -/
abbrev SlabIdx := (⟨2, ![264, 128]⟩ : Shape).Idx
/-- Indices of the batch of samples, 524288 rows of 15 features. -/
abbrev XIdx := (⟨2, ![524288, 15]⟩ : Shape).Idx

/-- Entry `i` of sample `q` extended by the rider: feature `i` for `i < 15`, the constant `one` at `i = 15`. -/
def aug (one : EReal) (x : XIdx → EReal) (q : Fin 524288) (i : Fin 16) : EReal :=
  if h : i.val < 15 then x (ix2 q ⟨i.val, h⟩) else one

/-- First hidden layer, unit `l`: the rectified product of row `l` of the first weight block with the extended sample. -/
def hid1 (z : EReal) (S : SlabIdx → EReal) (xa : Fin 16 → EReal) (l : Fin 128) : EReal :=
  max (∑ i : Fin 16, S (ix2 ⟨l.val, by omega⟩ ⟨i.val, by omega⟩) * xa i) z

/-- Second hidden layer, unit `k`, summing over the first `H` units of the first layer. -/
def hid2 (H : ℕ) (hH : H ≤ 128) (z : EReal) (S : SlabIdx → EReal) (xa : Fin 16 → EReal) (k : Fin 128) : EReal :=
  max (∑ l : Fin H, S (ix2 ⟨128 + k.val, by omega⟩ ⟨l.val, by omega⟩) * hid1 z S xa ⟨l.val, by omega⟩) z

/-- The output, summing over the first `H` units of the second layer. -/
def out (H : ℕ) (hH : H ≤ 128) (z : EReal) (S : SlabIdx → EReal) (xa : Fin 16 → EReal) : EReal :=
  ∑ k : Fin H, S (ix2 ⟨256, by omega⟩ ⟨k.val, by omega⟩) * hid2 H hH z S xa ⟨k.val, by omega⟩

end Cert.Mlp

end
-- ==== Proof.KernelPay.lean ====
/-
  The kernel body's stored value, read at an index.

  At a grid point the body holds a block `x0` of 32768 samples stored feature-major (15 rows, one column per sample)
  and the whole packed weight array `x1`. It appends a row of ones to the block (the rider), multiplies by the first
  weight block (rows 0..39, lanes 0..15), rectifies, multiplies by the second (rows 128..167, lanes 0..39), rectifies,
  and multiplies by the output row (row 256, lanes 0..39). So the stored row at column `q` is the specification's
  `Mlp.out 40` of the extended column `q` of the block.
-/
import proofs.«144147_g2000302644600430_pallasbulk_23_7_alg».proof.Proof.Gen.KernelIdeal.Frame
import proofs.«144147_g2000302644600430_pallasbulk_23_7_alg».proof.Proof.LibMlp3
import proofs.«144147_g2000302644600430_pallasbulk_23_7_alg».proof.Proof.Spec
import Idealize.ShloMosaic.Lib.Pipeline.Value

noncomputable section

namespace Cert.KernelIdeal.KVal

open Idealize.ShloMosaic Idealize.ShloMosaic.ValueIdx Idealize.ShloMosaic.Pipeline
open Cert.KernelIdeal Cert.KernelIdeal.Gen Cert.KernelIdeal.Facts₀

/-- The rectification threshold and the rider, as the programs spell them. -/
abbrev zf : EReal := Ideal.ofBits .f32 0x00000000#32
abbrev onef : EReal := Ideal.ofBits .f32 0x3F800000#32

theorem hz2 : (![0, 0] : Fin 2 → Nat) = fun _ => 0 := funext fun a => by fin_cases a <;> rfl

/-- Column `q` of a block of samples, extended by the rider: feature `i` for `i < 15`, one at `i = 15`. -/
def col (x0 : Vec Ideal S15x32768 .f32) (q : Fin 32768) (i : Fin 16) : EReal :=
  if h : i.val < 15 then x0 (ix2 ⟨i.val, h⟩ q) else onef

/-- The block with the row of ones appended, at (i, q), is the extended column's entry. -/
theorem cat_apply (x0 : Vec Ideal S15x32768 .f32) (i : Fin 16) (q : Fin 32768) :
    concatenate S16x32768 0 [⟨S15x32768, shapeCast S15x32768 (View.ld x0 r0_0) Facts₀.shapeCasts_S15x32768_S15x32768⟩,
        ⟨S1x32768, broadcast S1x32768 (Scalar.ofBits (F := Ideal) .f32 0x3F800000#32)⟩]
      Facts₀.concatenates_S15x32768_S1x32768_S16x32768_d0 (ix2 i q) = col x0 q i := by
  have e1 : shapeCast S15x32768 (View.ld x0 r0_0) Facts₀.shapeCasts_S15x32768_S15x32768 = x0 :=
    (shapeCast_self _ _).trans (View.ld_unit_zero hz2 _ x0)
  rw [e1]
  unfold col
  by_cases h : i.val < 15
  · rw [dif_pos h]
    exact concatenate_pair_apply_left (t := S16x32768) (s₁ := S15x32768) (s₂ := S1x32768) (0 : Fin 2) _ _ _ (ix2 i q) rfl (ix2 ⟨i.val, h⟩ q)
      (fun b => by match b with | ⟨0, _⟩ => rfl | ⟨1, _⟩ => rfl)
  · rw [dif_neg h]
    exact concatenate_pair_apply_right (t := S16x32768) (s₁ := S15x32768) (s₂ := S1x32768) (0 : Fin 2) _ _ _ (ix2 i q) rfl rfl (ix2 (0 : Fin 1) q)
      (fun b hb => by match b with | ⟨0, _⟩ => exact absurd rfl hb | ⟨1, _⟩ => rfl)
      (by show 0 + 15 = i.val; have := i.isLt; omega)

/-- The three weight blocks the body loads are the packed array's entries at the blocks' offsets. -/
theorem ld1 (x1 : Vec Ideal S264x128 .f32) (l : Fin 40) (i : Fin 16) :
    View.ld x1 r0_1 (ix2 l i) = x1 (ix2 ⟨l.val, by omega⟩ ⟨i.val, by omega⟩) :=
  congrArg x1 (funext fun a => Fin.ext (by
    match a with
    | ⟨0, _⟩ => show 0 + 1 * l.val = l.val; omega
    | ⟨1, _⟩ => show 0 + 1 * i.val = i.val; omega))
theorem ld2 (x1 : Vec Ideal S264x128 .f32) (k l : Fin 40) :
    View.ld x1 r0_2 (ix2 k l) = x1 (ix2 ⟨128 + k.val, by omega⟩ ⟨l.val, by omega⟩) :=
  congrArg x1 (funext fun a => Fin.ext (by
    match a with
    | ⟨0, _⟩ => show 128 + 1 * k.val = 128 + k.val; omega
    | ⟨1, _⟩ => show 0 + 1 * l.val = l.val; omega))
theorem ld3 (x1 : Vec Ideal S264x128 .f32) (k : Fin 40) :
    View.ld x1 r0_3 (ix2 (0 : Fin 1) k) = x1 (ix2 ⟨256, by omega⟩ ⟨k.val, by omega⟩) :=
  congrArg x1 (funext fun a => Fin.ext (by
    match a with
    | ⟨0, _⟩ => rfl
    | ⟨1, _⟩ => show 0 + 1 * k.val = k.val; omega))

/-- The stored row at column `q`: the specification at width 40 of the block's extended column `q`. -/
theorem pay_apply (x0 : Vec Ideal S15x32768 .f32) (x1 : Vec Ideal S264x128 .f32) (q : Fin 32768) :
    k0_pay1 (F := Ideal) (View.ld x0 r0_0) (View.ld x1 r0_1) (View.ld x1 r0_2) (View.ld x1 r0_3) (ix3 (0 : Fin 1) (0 : Fin 1) q)
      = Cert.Mlp.out 40 (by omega) zf x1 (col x0 q) := by
  unfold k0_pay1
  refine (shapeCast_addUnit_apply (n := 2) ![1, 32768] _ _ (ix3 (0 : Fin 1) (0 : Fin 1) q)).trans ?_
  have e : (fun a : Fin 2 => ix3 (0 : Fin 1) (0 : Fin 1) q a.succ) = ix2 (0 : Fin 1) q :=
    funext fun a => by match a with | ⟨0, _⟩ => rfl | ⟨1, _⟩ => rfl
  refine (congrArg _ e).trans ?_
  refine (Cert.Lib.mlp3_apply Facts₀.dot_S40x16_S16x32768_S40x32768_1_0_0_1_n_n_wf Facts₀.dot_S40x40_S40x32768_S40x32768_1_0_0_1_n_n_wf
    Facts₀.dot_S1x40_S40x32768_S1x32768_1_0_0_1_n_n_wf (View.ld x1 r0_1) (View.ld x1 r0_2) (View.ld x1 r0_3) _ zf (0 : Fin 1) q).trans ?_
  unfold Cert.Mlp.out Cert.Mlp.hid2 Cert.Mlp.hid1
  refine Finset.sum_congr rfl fun k _ => ?_
  rw [ld3]
  refine congrArg (x1 _ * max · zf) ?_
  refine Finset.sum_congr rfl fun l _ => ?_
  rw [ld2]
  refine congrArg (x1 _ * max · zf) ?_
  refine Finset.sum_congr rfl fun i _ => ?_
  rw [ld1, cat_apply]

end Cert.KernelIdeal.KVal

end
-- ==== Proof.KernelValue.lean ====
/-
  What the kernel's program returns, as one function of its two arguments.

  The program transposes the batch `x` (524288 samples of 15 features) to feature-major, cuts it into 16 blocks of 32768
  samples, runs the body on each block with the whole packed weight array, collects the 16 rows of 32768 outputs in a
  [16, 1, 32768] array and flattens it. Block `t`, column `q` is sample `32768 · t + q`; the body's row at column `q`
  is the specification at width 40 of that sample extended by the rider (KernelPay); the 16 blocks tile the collected
  array; and the flattening puts entry (t, 0, q) at position `32768 · t + q`. So the result at position `n` is
  `Mlp.out 40` of sample `n`.
-/
import proofs.«144147_g2000302644600430_pallasbulk_23_7_alg».proof.Proof.KernelPay
import Idealize.ShloMosaic.Lib.StableHlo.Run

noncomputable section

namespace Cert.KernelIdeal.KVal

open Idealize.ShloMosaic Idealize.ShloMosaic.ValueIdx Idealize.ShloMosaic.Pipeline Idealize.ShloMosaic.TcCoe
open Idealize.SL Idealize.SL.Sem
open Cert.KernelIdeal Cert.KernelIdeal.Gen Cert.KernelIdeal.Facts₀

variable (m : (ℓ : Loc nD τ sig) → Buf (Elt Ideal) ℓ) (ρ : Dev nD → PrngReg)

theorem hz3 : (![0, 0, 0] : Fin 3 → Nat) = fun _ => 0 := funext fun a => by fin_cases a <;> rfl

/-- The collected array: entry (t, 0, q) is the specification at width 40 of sample `32768 · t + q`. -/
def G1 (x : Cert.Mlp.XIdx → EReal) (S : Cert.Mlp.SlabIdx → EReal) : S16x1x32768.Idx → EReal := fun i =>
  Cert.Mlp.out 40 (by omega) zf S (Cert.Mlp.aug onef x ⟨(i 0).val * 32768 + (i 2).val, by
    have h0 : (i 0).val < 16 := (i 0).isLt
    have h2 : (i 2).val < 32768 := (i 2).isLt
    omega⟩)

/-- The result: position `n` is the specification at width 40 of sample `n`. -/
def Gout (x : Cert.Mlp.XIdx → EReal) (S : Cert.Mlp.SlabIdx → EReal) : S524288.Idx → EReal := fun j =>
  Cert.Mlp.out 40 (by omega) zf S (Cert.Mlp.aug onef x (j 0))

/-- The printed index maps over the grid: the input's block `t` is column block `t`, the weights' block is the whole
    array, the output's block `t` is row `t`. -/
theorem idx_facts : ∀ t : Fin cfg0.N, win0_0.index t (0 : Fin 2) = 0 ∧ win0_0.index t (1 : Fin 2) = t.val
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

/-- The region finds the batch transposed. -/
theorem V_v0 (c : Dev nD) : V m c main_v0
    = transpose S15x524288 [1, 0] (m ((c : Thread nD τ).loc main_arg0)) Facts₀.transposes_S524288x15_S15x524288_1_0 := by
  show StableHlo.after hostOps0 (fun b => m (c, b)) (Proc.devRef .tc main_v0) = _
  after_results

/-- The input's block at a point is read off the transposed batch through the block's rectangle, -/
theorem blk0_read (c : Dev nD) (t : Fin cfg0.N) (i : Fin 15) (q : Fin 32768) :
    iblk m c 0 t (ix2 i q) = V m c main_v0 (((cfg0.win 0).blk t).view.emb (ix2 i q)) := rfl

/-- the transposed batch at (feature, sample) is the batch at (sample, feature), -/
theorem tr_apply (x : S524288x15.Idx → EReal) (i : Fin 15) (n : Fin 524288) :
    transpose S15x524288 [1, 0] x Facts₀.transposes_S524288x15_S15x524288_1_0 (ix2 i n) = x (ix2 n i) :=
  transpose_apply _ _ _ (ix2 i n) (ix2 n i) (fun b => by
    match b with
    | ⟨0, _⟩ => rfl
    | ⟨1, _⟩ => rfl)

/-- and column `q` of block `t` is column `32768 · t + q` of the transposed batch. -/
theorem emb0 (t : Fin cfg0.N) (i : Fin 15) (q : Fin 32768) (n : Fin 524288) (hn : n.val = t.val * 32768 + q.val) :
    ((cfg0.win 0).blk t).view.emb (ix2 i q) = ix2 i n := by
  obtain ⟨e0, e1, -⟩ := idx_facts t
  funext a; apply Fin.ext
  match a with
  | ⟨0, _⟩ => show win0_0.index t (0 : Fin 2) * 15 + 1 * i.val = i.val; omega
  | ⟨1, _⟩ => show win0_0.index t (1 : Fin 2) * 32768 + 1 * q.val = n.val; omega

/-- Feature `i` of column `q` of the input's block `t` is feature `i` of sample `32768 · t + q`. -/
theorem blk0 (c : Dev nD) (t : Fin cfg0.N) (i : Fin 15) (q : Fin 32768) (n : Fin 524288) (hn : n.val = t.val * 32768 + q.val) :
    iblk m c 0 t (ix2 i q) = m ((c : Thread nD τ).loc main_arg0) (ix2 n i) := by
  rw [blk0_read, emb0 t i q n hn, V_v0, tr_apply]

/-- The weights' block at every point is the packed array. -/
theorem blk1 (c : Dev nD) (t : Fin cfg0.N) (y : S264x128.Idx) :
    iblk m c 1 t y = m ((c : Thread nD τ).loc main_arg1) y := by
  show V m c main_arg1 (((cfg0.win 1).blk t).view.emb y) = _
  rw [V_main_arg1]
  obtain ⟨-, -, e2, e3, -⟩ := idx_facts t
  refine congrArg _ (funext fun a => Fin.ext ?_)
  match a with
  | ⟨0, _⟩ => show win0_1.index t (0 : Fin 2) * 264 + 1 * (y 0).val = (y 0).val; omega
  | ⟨1, _⟩ => show win0_1.index t (1 : Fin 2) * 128 + 1 * (y 1).val = (y 1).val; omega

/-- The body's row at any index of its block: the two leading coordinates are zero. -/
theorem pay_at (x0 : Vec Ideal S15x32768 .f32) (x1 : Vec Ideal S264x128 .f32) (y : S1x1x32768.Idx) :
    k0_pay1 (F := Ideal) (View.ld x0 r0_0) (View.ld x1 r0_1) (View.ld x1 r0_2) (View.ld x1 r0_3) y
      = Cert.Mlp.out 40 (by omega) zf x1 (col x0 (y 2)) := by
  have e : y = ix3 (0 : Fin 1) (0 : Fin 1) (y 2 : Fin 32768) := by
    funext a; apply Fin.ext
    match a with
    | ⟨0, _⟩ => have h : (y 0).val < 1 := (y 0).isLt; show (y 0).val = 0; omega
    | ⟨1, _⟩ => have h : (y 1).val < 1 := (y 1).isLt; show (y 1).val = 0; omega
    | ⟨2, _⟩ => rfl
  exact (congrArg (k0_pay1 (F := Ideal) (View.ld x0 r0_0) (View.ld x1 r0_1) (View.ld x1 r0_2) (View.ld x1 r0_3)) e).trans
    (pay_apply x0 x1 (y 2))

/-- WHAT POINT `t` WRITES BACK is block `t` of the collected array `G1` of the arguments. -/
theorem flushed_eq (c : Dev nD) (t : Fin cfg0.N) :
    (dats m 0 c).flushed 2 t = ((cfg0.win 2).blk t).view.read (Elt Ideal)
      (G1 (m ((c : Thread nD τ).loc main_arg0)) (m ((c : Thread nD τ).loc main_arg1))) := by
  show (cfg0.win 2).cut (grid0.coords t) ((dats m 0 c).after 2 t) = _
  rw [after0_2]
  unfold out0_2
  rw [View.canon_unit_zero hz3]
  funext j
  show k0_pay1 (F := Ideal) (View.ld (iblk m c 0 t) r0_0) (View.ld (iblk m c 1 t) r0_1) (View.ld (iblk m c 1 t) r0_2) (View.ld (iblk m c 1 t) r0_3) j
    = G1 (m ((c : Thread nD τ).loc main_arg0)) (m ((c : Thread nD τ).loc main_arg1)) (((cfg0.win 2).blk t).view.emb j)
  refine (pay_at (iblk m c 0 t) (iblk m c 1 t) j).trans ?_
  obtain ⟨-, -, -, -, e4, e5, e6⟩ := idx_facts t
  have ht : t.val < 16 := lt_of_lt_of_eq t.isLt N_0
  have hj0 : (j 0).val < 1 := (j 0).isLt
  have hj2 : (j 2).val < 32768 := (j 2).isLt
  unfold G1
  have hS : iblk m c 1 t = m ((c : Thread nD τ).loc main_arg1) := funext (blk1 m c t)
  rw [hS]
  refine congrArg (Cert.Mlp.out 40 _ zf _) (funext fun i => ?_)
  unfold col Cert.Mlp.aug
  by_cases h : i.val < 15
  · rw [dif_pos h, dif_pos h]
    refine blk0 m c t ⟨i.val, h⟩ (j 2) _ ?_
    show (win0_2.index t (0 : Fin 3) * 1 + 1 * (j 0).val) * 32768 + (win0_2.index t (2 : Fin 3) * 32768 + 1 * (j 2).val) = t.val * 32768 + (j 2).val
    omega
  · rw [dif_neg h, dif_neg h]

/-- An index of the collected array is in point `t`'s block iff each coordinate is in the block's range on its axis. -/
theorem mem_blk (t : Fin cfg0.N) (i : S16x1x32768.Idx) :
    i ∈ ((cfg0.win 2).blk t).view.set ↔ ∀ a : Fin 3, win0_2.index t a * S1x1x32768.size a ≤ (i a).val
      ∧ (i a).val < win0_2.index t a * S1x1x32768.size a + S1x1x32768.size a := by
  show i ∈ ((View.whole main_v1).slice (win0_2.rect t)).set ↔ _
  rw [View.set_slice_whole, Rect.mem_set_unit]
  exact Iff.rfl

/-- Every index of the collected array is in the block of the point its first coordinate names. -/
theorem cover (i : S16x1x32768.Idx) :
    ∃ t : Fin cfg0.N, (cfg0.win 2).flush t = true ∧ i ∈ ((cfg0.win 2).blk t).view.set := by
  have h0 : (i 0).val < 16 := (i 0).isLt
  have h1 : (i 1).val < 1 := (i 1).isLt
  have h2 : (i 2).val < 32768 := (i 2).isLt
  have hN : cfg0.N = 16 := N_0
  obtain ⟨t0, ht0⟩ : ∃ t0 : Fin cfg0.N, t0.val = (i 0).val := ⟨⟨(i 0).val, by rw [hN]; exact h0⟩, rfl⟩
  refine ⟨t0, flush0_2 t0, ?_⟩
  rw [mem_blk]
  obtain ⟨-, -, -, -, e4, e5, e6⟩ := idx_facts t0
  intro a
  match a with
  | ⟨0, _⟩ =>
    show win0_2.index t0 (0 : Fin 3) * 1 ≤ (i 0).val ∧ (i 0).val < win0_2.index t0 (0 : Fin 3) * 1 + 1
    rw [e4]; constructor <;> omega
  | ⟨1, _⟩ =>
    show win0_2.index t0 (1 : Fin 3) * 1 ≤ (i 1).val ∧ (i 1).val < win0_2.index t0 (1 : Fin 3) * 1 + 1
    rw [e5]; constructor <;> omega
  | ⟨2, _⟩ =>
    show win0_2.index t0 (2 : Fin 3) * 32768 ≤ (i 2).val ∧ (i 2).val < win0_2.index t0 (2 : Fin 3) * 32768 + 32768
    rw [e6]; constructor <;> omega

/-- THE COLLECTED ARRAY after the run is `G1` of the arguments. -/
theorem final (c : Dev nD) : (dats m 0 c).arrAt 2 cfg0.N
    = G1 (m ((c : Thread nD τ).loc main_arg0)) (m ((c : Thread nD τ).loc main_arg1)) :=
  (dats m 0 c).arrAt_eq_of_cover 2 _ (fun t _ => flushed_eq m c t) cover

/-- The flattening after the region puts entry (t, 0, q) of the collected array at position `32768 · t + q`: the
    program's result is `Gout` of the arguments. -/
theorem tail_eq (c : Dev nD) :
    Pipeline.afterTail₀ cfgs (dats m) 0 (V0 m) [hostOps1] c main_v2
      = Gout (m ((c : Thread nD τ).loc main_arg0)) (m ((c : Thread nD τ).loc main_arg1)) := by
  unfold Pipeline.afterTail₀
  show StableHlo.after hostOps1 _ (Proc.devRef .tc main_v2) = _
  after_results
  have hA : withArrays (cfgs 0).spec c (V0 m c) (fun w => (dats m 0 c).arrAt w (cfgs 0).N) (Proc.devRef .tc main_v1)
      = G1 (m ((c : Thread nD τ).loc main_arg0)) (m ((c : Thread nD τ).loc main_arg1)) :=
    (Pipeline.withArrays_arr spec0 launch0.win.arr_inj c _ _ 2).trans (final m c)
  funext j
  show shapeCast S524288 (withArrays (cfgs 0).spec c (V0 m c) (fun w => (dats m 0 c).arrAt w (cfgs 0).N) (Proc.devRef .tc main_v1))
    Gen.shapeCasts_S16x1x32768_S524288 j = _
  rw [hA]
  have hj : (j 0).val < 524288 := (j 0).isLt
  refine (shapeCast_apply _ _ j (ix3 (⟨(j 0).val / 32768, by omega⟩ : Fin 16) (0 : Fin 1) (⟨(j 0).val % 32768, by omega⟩ : Fin 32768)) ?_).trans ?_
  · refine (Shape.rowMajor_val_three _).trans (Eq.trans ?_ (Shape.rowMajor_val_one (d := ![524288]) j).symm)
    show ((j 0).val / 32768 * 1 + 0) * 32768 + (j 0).val % 32768 = (j 0).val
    omega
  · unfold G1 Gout
    refine congrArg (Cert.Mlp.out 40 _ zf _) (congrArg (Cert.Mlp.aug onef _) (Fin.ext ?_))
    show (j 0).val / 32768 * 32768 + (j 0).val % 32768 = (j 0).val
    omega

/-- THE RUN, READ: every weakly fair execution of the kernel's program terminates with the result at `Gout` of the
    arguments and the arguments unchanged. -/
theorem run : θ_run defs (onTc (τ := τ) (main (F := Ideal))) ⟨m, fun _ => 0, ρ⟩ fun r => ∀ c : Dev nD,
      r.2.mem ((c : Thread nD τ).loc main_v2) = Gout (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
    ⟨((h c).2 main_v2 (Pipeline.mem_restRefs_of main_v2 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c)))⟩)
    (run_main m ρ)

end Cert.KernelIdeal.KVal

end
-- ==== Proof.RefPay.lean ====
/-
  The reference body's stored value, read at an index.

  At a grid point the body holds a block `x0` of 2048 samples stored feature-major with the rider already in place
  (16 rows, one column per sample) and the whole packed weight array `x1`. It multiplies the block by the first weight
  block (rows 0..127, lanes 0..15), rectifies, multiplies by the second (rows 128..255, all 128 lanes), rectifies, and
  multiplies by the eight output rows (rows 256..263, all 128 lanes). So the stored entry at row `p` and column `q` is

    Σ_{k<128} x1[256 + p, k] · hid2 k        (hid2 at hidden width 128, of column q of the block),

  and row 0 is the specification's `Mlp.out 128` of column `q` of the block.
-/
import proofs.«144147_g2000302644600430_pallasbulk_23_7_alg».proof.Proof.Gen.ReferenceIdeal.Frame
import proofs.«144147_g2000302644600430_pallasbulk_23_7_alg».proof.Proof.LibMlp3
import proofs.«144147_g2000302644600430_pallasbulk_23_7_alg».proof.Proof.Spec
import Idealize.ShloMosaic.Lib.Pipeline.Value

noncomputable section

namespace Cert.ReferenceIdeal.RVal

open Idealize.ShloMosaic Idealize.ShloMosaic.ValueIdx Idealize.ShloMosaic.Pipeline
open Cert.ReferenceIdeal Cert.ReferenceIdeal.Gen

/-- The rectification threshold, as the program spells it. -/
abbrev zf : EReal := Ideal.ofBits .f32 0x00000000#32

theorem hz2 : (![0, 0] : Fin 2 → Nat) = fun _ => 0 := funext fun a => by fin_cases a <;> rfl

/-- The loaded block of samples (through the cast to its own shape) is the block. -/
theorem ld0 (x0 : Vec Ideal S16x2048 .f32) (i : Fin 16) (q : Fin 2048) :
    shapeCast S16x2048 (View.ld x0 r0_0) Cert.ReferenceIdeal.Gen.shapeCasts_S16x2048_S16x2048 (ix2 i q) = x0 (ix2 i q) :=
  (congrFun (shapeCast_self (s := S16x2048) (View.ld x0 r0_0) _) (ix2 i q)).trans
    (congrFun (View.ld_unit_zero (S := S16x2048) hz2 _ x0) (ix2 i q))

/-- The three weight blocks the body loads are the packed array's entries at the blocks' offsets. -/
theorem ld1 (x1 : Vec Ideal S264x128 .f32) (l : Fin 128) (i : Fin 16) :
    View.ld x1 r0_1 (ix2 l i) = x1 (ix2 ⟨l.val, by omega⟩ ⟨i.val, by omega⟩) :=
  congrArg x1 (funext fun a => Fin.ext (by
    match a with
    | ⟨0, _⟩ => show 0 + 1 * l.val = l.val; omega
    | ⟨1, _⟩ => show 0 + 1 * i.val = i.val; omega))
theorem ld2 (x1 : Vec Ideal S264x128 .f32) (k l : Fin 128) :
    View.ld x1 r0_2 (ix2 k l) = x1 (ix2 ⟨128 + k.val, by omega⟩ ⟨l.val, by omega⟩) :=
  congrArg x1 (funext fun a => Fin.ext (by
    match a with
    | ⟨0, _⟩ => show 128 + 1 * k.val = 128 + k.val; omega
    | ⟨1, _⟩ => show 0 + 1 * l.val = l.val; omega))
theorem ld3 (x1 : Vec Ideal S264x128 .f32) (p : Fin 8) (k : Fin 128) :
    View.ld x1 r0_3 (ix2 p k) = x1 (ix2 ⟨256 + p.val, by omega⟩ ⟨k.val, by omega⟩) :=
  congrArg x1 (funext fun a => Fin.ext (by
    match a with
    | ⟨0, _⟩ => show 256 + 1 * p.val = 256 + p.val; omega
    | ⟨1, _⟩ => show 0 + 1 * k.val = k.val; omega))

/-- The stored entry at row `p`, column `q`: output row `256 + p` of the packed array against the second hidden layer,
at hidden width 128, of column `q` of the block. -/
theorem pay_apply (x0 : Vec Ideal S16x2048 .f32) (x1 : Vec Ideal S264x128 .f32) (p : Fin 8) (q : Fin 2048) :
    k0_pay1 (F := Ideal) (View.ld x0 r0_0) (View.ld x1 r0_1) (View.ld x1 r0_2) (View.ld x1 r0_3) (ix2 p q)
      = ∑ k : Fin 128, x1 (ix2 ⟨256 + p.val, by omega⟩ ⟨k.val, by omega⟩)
          * Cert.Mlp.hid2 128 le_rfl zf x1 (fun i => x0 (ix2 i q)) ⟨k.val, by omega⟩ := by
  unfold k0_pay1
  refine (Cert.Lib.mlp3_apply Cert.ReferenceIdeal.Gen.dot_S128x16_S16x2048_S128x2048_1_0_0_1_n_n_wf
    Cert.ReferenceIdeal.Gen.dot_S128x128_S128x2048_S128x2048_1_0_0_1_n_n_wf
    Cert.ReferenceIdeal.Gen.dot_S8x128_S128x2048_S8x2048_1_0_0_1_n_n_wf
    (View.ld x1 r0_1) (View.ld x1 r0_2) (View.ld x1 r0_3) _ zf p q).trans ?_
  unfold Cert.Mlp.hid2 Cert.Mlp.hid1
  refine Finset.sum_congr rfl fun k _ => ?_
  rw [ld3]
  refine congrArg (x1 _ * max · zf) ?_
  refine Finset.sum_congr rfl fun l _ => ?_
  rw [ld2]
  refine congrArg (x1 _ * max · zf) ?_
  refine Finset.sum_congr rfl fun i _ => ?_
  rw [ld1, ld0]

/-- Row 0 of the stored block at column `q` is the specification at width 128 of column `q` of the block. -/
theorem pay_apply_zero (x0 : Vec Ideal S16x2048 .f32) (x1 : Vec Ideal S264x128 .f32) (q : Fin 2048) :
    k0_pay1 (F := Ideal) (View.ld x0 r0_0) (View.ld x1 r0_1) (View.ld x1 r0_2) (View.ld x1 r0_3) (ix2 (0 : Fin 8) q)
      = Cert.Mlp.out 128 le_rfl zf x1 (fun i => x0 (ix2 i q)) :=
  pay_apply x0 x1 0 q

end Cert.ReferenceIdeal.RVal

end
-- ==== Proof.LibScatterSet.lean ====
/-
  Reading a `stablehlo.scatter` whose body returns the update (`fun _ b => b`) at one result index.

  The scatter is the left fold, over the update indices in row-major order, of the step that
  overwrites the result at the update's result index (when it has one) with the update's element.
  Two readings:
  * (hit)  if update index `j0` lands at `i` and it is the only update index that does, the
    result at `i` is the update's element at `j0`;
  * (miss) if no update index lands at `i`, the result at `i` is the operand's element at `i`.
  Both are proved for the fold over an arbitrary list of update positions and an arbitrary
  starting array, by induction on the list.
-/
import Idealize.ShloMosaic.PureOps.ShapeOps

namespace Cert.Lib

open Idealize.ShloMosaic

section ScatterSet
variable {s si u : Shape} {α : Type} {w : Nat}

/-- One step of the fold of a scatter whose body returns the update: the update at row-major
    position `n` overwrites the array at its result index, when it has one. -/
def scatterSetStep (d : ScatterDims s si u) (idx : IVec si w) (upd : u.Idx → α)
    (r : s.Idx → α) (n : Fin u.numel) : s.Idx → α :=
  match d.resultIdx? (u.rowMajor.symm n) idx with
  | some i => fun i' => if i' = i then upd (u.rowMajor.symm n) else r i'
  | none => r

/-- The scatter whose body returns the update is the fold of `scatterSetStep`. -/
theorem scatter_set_eq_foldl (d : ScatterDims s si u) (x : s.Idx → α) (idx : IVec si w) (upd : u.Idx → α) :
    Host.scatter d (fun _ b => b) x idx upd = (List.finRange u.numel).foldl (scatterSetStep d idx upd) x := rfl

/-- A step whose update lands at `i` leaves the update's element at `i`. -/
theorem scatterSetStep_hit (d : ScatterDims s si u) (idx : IVec si w) (upd : u.Idx → α)
    (r : s.Idx → α) (n : Fin u.numel) (i : s.Idx)
    (h : d.resultIdx? (u.rowMajor.symm n) idx = some i) :
    scatterSetStep d idx upd r n i = upd (u.rowMajor.symm n) := by
  unfold scatterSetStep
  rw [h]
  simp

/-- A step whose update does not land at `i` leaves the array at `i` as it was. -/
theorem scatterSetStep_miss (d : ScatterDims s si u) (idx : IVec si w) (upd : u.Idx → α)
    (r : s.Idx → α) (n : Fin u.numel) (i : s.Idx)
    (h : d.resultIdx? (u.rowMajor.symm n) idx ≠ some i) :
    scatterSetStep d idx upd r n i = r i := by
  unfold scatterSetStep
  cases hk : d.resultIdx? (u.rowMajor.symm n) idx with
  | none => rfl
  | some k =>
    have hne : i ≠ k := fun e => h (by rw [hk, e])
    simp [hne]

/-- The fold over a list of positions none of which lands at `i` leaves the array at `i` as it was. -/
theorem foldl_scatterSetStep_miss (d : ScatterDims s si u) (idx : IVec si w) (upd : u.Idx → α) (i : s.Idx)
    (l : List (Fin u.numel)) (r : s.Idx → α)
    (h : ∀ n ∈ l, d.resultIdx? (u.rowMajor.symm n) idx ≠ some i) :
    l.foldl (scatterSetStep d idx upd) r i = r i := by
  induction l generalizing r with
  | nil => rfl
  | cons n l ih =>
    rw [List.foldl_cons, ih _ (fun m hm => h m (List.mem_cons_of_mem _ hm))]
    exact scatterSetStep_miss d idx upd r n i (h n List.mem_cons_self)

/-- The fold over a list of positions of which only `n0` can land at `i`: if the array already holds
    the update's element of `n0` at `i`, or `n0` is in the list, the result holds it at `i`. -/
theorem foldl_scatterSetStep_hit (d : ScatterDims s si u) (idx : IVec si w) (upd : u.Idx → α) (i : s.Idx)
    (n0 : Fin u.numel) (h0 : d.resultIdx? (u.rowMajor.symm n0) idx = some i)
    (l : List (Fin u.numel)) (r : s.Idx → α)
    (huniq : ∀ n ∈ l, d.resultIdx? (u.rowMajor.symm n) idx = some i → n = n0)
    (hor : r i = upd (u.rowMajor.symm n0) ∨ n0 ∈ l) :
    l.foldl (scatterSetStep d idx upd) r i = upd (u.rowMajor.symm n0) := by
  induction l generalizing r with
  | nil =>
    rcases hor with h | h
    · exact h
    · cases h
  | cons n l ih =>
    rw [List.foldl_cons]
    apply ih _ (fun m hm => huniq m (List.mem_cons_of_mem _ hm))
    by_cases hn : d.resultIdx? (u.rowMajor.symm n) idx = some i
    · left
      have hnn : n = n0 := huniq n List.mem_cons_self hn
      rw [scatterSetStep_hit d idx upd r n i hn, hnn]
    · rw [scatterSetStep_miss d idx upd r n i hn]
      rcases hor with h | h
      · exact Or.inl h
      · rcases List.mem_cons.1 h with e | e
        · exact absurd (e ▸ h0) hn
        · exact Or.inr e

/-- (hit) If update index `j0` lands at `i` and every update index that lands at `i` is `j0`, the
    scatter whose body returns the update holds the update's element of `j0` at `i`. -/
theorem scatter_set_hit (d : ScatterDims s si u) (x : s.Idx → α) (idx : IVec si w) (upd : u.Idx → α)
    (i : s.Idx) (j0 : u.Idx) (h0 : d.resultIdx? j0 idx = some i)
    (huniq : ∀ j, d.resultIdx? j idx = some i → j = j0) :
    Host.scatter d (fun _ b => b) x idx upd i = upd j0 := by
  rw [scatter_set_eq_foldl]
  have hj : u.rowMajor.symm (u.rowMajor j0) = j0 := u.rowMajor.symm_apply_apply j0
  have := foldl_scatterSetStep_hit d idx upd i (u.rowMajor j0) (by rw [hj]; exact h0)
    (List.finRange u.numel) x
    (fun n _ hn => by
      have e := huniq _ hn
      rw [← e, Equiv.apply_symm_apply])
    (Or.inr (List.mem_finRange _))
  rw [this, hj]

/-- (miss) If no update index lands at `i`, the scatter whose body returns the update holds the
    operand's element at `i`. -/
theorem scatter_set_miss (d : ScatterDims s si u) (x : s.Idx → α) (idx : IVec si w) (upd : u.Idx → α)
    (i : s.Idx) (hmiss : ∀ j, d.resultIdx? j idx ≠ some i) :
    Host.scatter d (fun _ b => b) x idx upd i = x i := by
  rw [scatter_set_eq_foldl]
  exact foldl_scatterSetStep_miss d idx upd i _ x (fun n _ => hmiss _)

end ScatterSet

end Cert.Lib
-- ==== Proof.RefInput.lean ====
/-
  The reference program's prepared input, read at an index.

  The reference builds a 16 x 524288 array from its 524288 x 15 input by two scatters whose bodies
  return the update: the first writes the constant one along row 15 of an array of zeros (one scalar
  start index 15, the operand's axis 0 inserted, the update's axis the window along axis 1), the
  second writes the transposed input over rows 0 to 14 (one scalar start index 0, the update's two
  axes the window along the operand's two axes). For each scatter the result index of an update index
  `j` is computed symbolically in `j` (start plus window coordinate on each of the two operand axes),
  which gives the one update index landing at a result index, or that there is none; the general
  reading of such a scatter at an index then gives the element. Together:
  the array at `(i, q)` is the input at `(q, i)` for `i < 15` and the constant one for `i = 15`.
-/
import proofs.«144147_g2000302644600430_pallasbulk_23_7_alg».proof.ReferenceIdeal
import proofs.«144147_g2000302644600430_pallasbulk_23_7_alg».proof.Proof.LibScatterSet
import Idealize.ShloMosaic.Lib.ValueIdx
import Idealize.ShloMosaic.Lib.Pipeline.Value

namespace Cert.ReferenceIdeal.RefInput

open Idealize.ShloMosaic Idealize.ShloMosaic.ValueIdx

section General
variable {s si u : Shape} {w : Nat}

/-- An update index lands at `i` exactly when, on every operand axis, its window start plus its
    window coordinate is `i`'s coordinate. -/
theorem resultIdx?_eq_some_iff (d : ScatterDims s si u) (j : u.Idx) (idx : IVec si w) (i : s.Idx) :
    d.resultIdx? j idx = some i ↔ ∀ a, d.start j idx a + (d.window j a : Int) = ((i a).val : Int) := by
  unfold ScatterDims.resultIdx?
  split
  · rename_i h
    constructor
    · intro e a
      have e' := Option.some.inj e
      have := congrArg (fun f => (f a).val) e'
      simp only at this
      rw [← this]
      exact (Int.toNat_of_nonneg (h a).1).symm
    · intro hall
      congr 1
      funext a
      apply Fin.ext
      show (d.start j idx a + (d.window j a : Int)).toNat = (i a).val
      rw [hall a]
      exact Int.toNat_natCast _
  · rename_i h
    constructor
    · intro e; cases e
    · intro hall
      exfalso
      apply h
      intro a
      rw [hall a]
      exact ⟨Int.natCast_nonneg _, by exact_mod_cast (i a).isLt⟩

end General

variable [Facts₀]
open Facts₀

/-! ### The first scatter: one scalar start index `15`, the operand's axis 0 inserted, the
    update's one axis the window on operand axis 1. -/

/-- First scatter: operand axis 0 is inserted, its window coordinate is `0`. -/
theorem w1_0 (j : S524288.Idx) : scatter_S16x524288_S1_S524288_0_0_0_0.window j 0 = 0 := by
  unfold ScatterDims.window
  rw [dif_neg (by show (0 : Fin S16x524288.rank) ∉ S16x524288.kept [0]; decide)]
/-- First scatter: the window coordinate on operand axis 1 is the update's coordinate. -/
theorem w1_1 (j : S524288.Idx) : scatter_S16x524288_S1_S524288_0_0_0_0.window j 1 = (j 0).val := by
  unfold ScatterDims.window
  rw [dif_pos (by show (1 : Fin S16x524288.rank) ∈ S16x524288.kept [0]; decide)]
  rfl
/-- First scatter: the window starts at `15` on operand axis 0 (the start index read signed). -/
theorem s1_0 (j : S524288.Idx) : scatter_S16x524288_S1_S524288_0_0_0_0.start j (broadcastInDim S1 ![] bcast_S_S1 (constantI S_ 32 15#32)) 0 = 15 := by
  unfold ScatterDims.start
  rw [dif_pos (by show (0 : Fin S16x524288.rank) ∈ ([0] : List (Fin S16x524288.rank)); decide)]
  show (15#32 : BitVec 32).toInt = 15
  decide
/-- First scatter: operand axis 1 is not a scattered axis, the window starts at `0` there. -/
theorem s1_1 (j : S524288.Idx) : scatter_S16x524288_S1_S524288_0_0_0_0.start j (broadcastInDim S1 ![] bcast_S_S1 (constantI S_ 32 15#32)) 1 = 0 := by
  unfold ScatterDims.start
  rw [dif_neg (by show (1 : Fin S16x524288.rank) ∉ ([0] : List (Fin S16x524288.rank)); decide)]

/-- First scatter: update index `j` lands at `i` exactly when `i = (15, j)`. -/
theorem r1 (j : S524288.Idx) (i : S16x524288.Idx) :
    scatter_S16x524288_S1_S524288_0_0_0_0.resultIdx? j (broadcastInDim S1 ![] bcast_S_S1 (constantI S_ 32 15#32)) = some i ↔
      (i 0).val = 15 ∧ (i 1).val = (j 0).val := by
  rw [resultIdx?_eq_some_iff]
  constructor
  · intro h
    have h0 := h 0
    have h1 := h 1
    rw [s1_0, w1_0] at h0
    rw [s1_1, w1_1] at h1
    constructor <;> omega
  · rintro ⟨h0, h1⟩
    refine Fin.forall_fin_two.2 ⟨?_, ?_⟩
    · rw [s1_0, w1_0]; omega
    · rw [s1_1, w1_1]; omega

/-! ### The second scatter: one scalar start index `0`, no inserted axis, the update's two axes
    the window on the operand's two axes. -/

/-- Second scatter: the window coordinate on operand axis 0 is the update's first coordinate. -/
theorem w2_0 (j : S15x524288.Idx) : scatter_S16x524288_S1_S15x524288_01_n_0_0.window j 0 = (j 0).val := by
  unfold ScatterDims.window
  rw [dif_pos (by show (0 : Fin S16x524288.rank) ∈ S16x524288.kept []; decide)]
  rfl
/-- Second scatter: the window coordinate on operand axis 1 is the update's second coordinate. -/
theorem w2_1 (j : S15x524288.Idx) : scatter_S16x524288_S1_S15x524288_01_n_0_0.window j 1 = (j 1).val := by
  unfold ScatterDims.window
  rw [dif_pos (by show (1 : Fin S16x524288.rank) ∈ S16x524288.kept []; decide)]
  rfl
/-- Second scatter: the window starts at `0` on operand axis 0 (the start index read signed). -/
theorem s2_0 (j : S15x524288.Idx) : scatter_S16x524288_S1_S15x524288_01_n_0_0.start j (broadcastInDim S1 ![] bcast_S_S1 (constantI S_ 32 0#32)) 0 = 0 := by
  unfold ScatterDims.start
  rw [dif_pos (by show (0 : Fin S16x524288.rank) ∈ ([0] : List (Fin S16x524288.rank)); decide)]
  show (0#32 : BitVec 32).toInt = 0
  decide
/-- Second scatter: operand axis 1 is not a scattered axis, the window starts at `0` there. -/
theorem s2_1 (j : S15x524288.Idx) : scatter_S16x524288_S1_S15x524288_01_n_0_0.start j (broadcastInDim S1 ![] bcast_S_S1 (constantI S_ 32 0#32)) 1 = 0 := by
  unfold ScatterDims.start
  rw [dif_neg (by show (1 : Fin S16x524288.rank) ∉ ([0] : List (Fin S16x524288.rank)); decide)]

/-- Second scatter: update index `j` lands at `i` exactly when `i` has `j`'s two coordinates. -/
theorem r2 (j : S15x524288.Idx) (i : S16x524288.Idx) :
    scatter_S16x524288_S1_S15x524288_01_n_0_0.resultIdx? j (broadcastInDim S1 ![] bcast_S_S1 (constantI S_ 32 0#32)) = some i ↔
      (i 0).val = (j 0).val ∧ (i 1).val = (j 1).val := by
  rw [resultIdx?_eq_some_iff]
  constructor
  · intro h
    have h0 := h 0
    have h1 := h 1
    rw [s2_0, w2_0] at h0
    rw [s2_1, w2_1] at h1
    constructor <;> omega
  · rintro ⟨h0, h1⟩
    refine Fin.forall_fin_two.2 ⟨?_, ?_⟩
    · rw [s2_0, w2_0]; omega
    · rw [s2_1, w2_1]; omega

section Apply
variable {α : Type}

/-- The first scatter read at `(i, q)`: row 15 is the update, every other row the operand. -/
theorem scatter1_apply (x0 : S16x524288.Idx → α) (upd : S524288.Idx → α) (i : Fin 16) (q : Fin 524288) :
    Host.scatter scatter_S16x524288_S1_S524288_0_0_0_0 (fun _ b => b) x0
        (broadcastInDim S1 ![] bcast_S_S1 (constantI S_ 32 15#32)) upd (ix2 i q) =
      if i.val = 15 then upd (ix1 q) else x0 (ix2 i q) := by
  split
  · rename_i hi
    apply Cert.Lib.scatter_set_hit
    · rw [r1]; exact ⟨hi, rfl⟩
    · intro j hj
      rw [r1] at hj
      have h2 : q.val = (j 0).val := hj.2
      have e : j 0 = q := Fin.ext h2.symm
      rw [eq_ix1 j, e]
      rfl
  · rename_i hi
    apply Cert.Lib.scatter_set_miss
    intro j hj
    rw [r1] at hj
    exact hi hj.1

/-- The second scatter read at `(i, q)`: rows 0 to 14 are the update's, row 15 the operand's. -/
theorem scatter2_apply (x0 : S16x524288.Idx → α) (upd : S15x524288.Idx → α) (i : Fin 16) (q : Fin 524288) :
    Host.scatter scatter_S16x524288_S1_S15x524288_01_n_0_0 (fun _ b => b) x0
        (broadcastInDim S1 ![] bcast_S_S1 (constantI S_ 32 0#32)) upd (ix2 i q) =
      if h : i.val < 15 then upd (ix2 ⟨i.val, h⟩ q) else x0 (ix2 i q) := by
  split
  · rename_i hi
    apply Cert.Lib.scatter_set_hit
    · rw [r2]; exact ⟨rfl, rfl⟩
    · intro j hj
      rw [r2] at hj
      have h1 : i.val = (j 0).val := hj.1
      have h2 : q.val = (j 1).val := hj.2
      have e1 : j 0 = ⟨i.val, hi⟩ := Fin.ext h1.symm
      have e2 : j 1 = q := Fin.ext h2.symm
      rw [eq_ix2 j, e1, e2]
      rfl
  · rename_i hi
    apply Cert.Lib.scatter_set_miss
    intro j hj
    rw [r2] at hj
    have h1 : i.val = (j 0).val := hj.1
    have := (j 0).isLt
    exact hi (by rw [h1]; exact this)

end Apply

/-- The reference's prepared input read at `(i, q)`: rows 0 to 14 are the transposed input, row 15
    is the constant one. -/
theorem xin_apply (x : FVec Ideal S524288x15 .f32) (i : Fin 16) (q : Fin 524288) :
    Host.scatter scatter_S16x524288_S1_S15x524288_01_n_0_0 (fun _ b => b)
        (Host.scatter scatter_S16x524288_S1_S524288_0_0_0_0 (fun _ b => b)
          (broadcastInDim S16x524288 ![] bcast_S_S16x524288 (constant (F := Ideal) S_ .f32 0x00000000#32))
          (broadcastInDim S1 ![] bcast_S_S1 (constantI S_ 32 15#32))
          (broadcastInDim S524288 ![] bcast_S_S524288 (constant (F := Ideal) S_ .f32 0x3F800000#32)))
        (broadcastInDim S1 ![] bcast_S_S1 (constantI S_ 32 0#32))
        (transpose S15x524288 [1, 0] x transposes_S524288x15_S15x524288_1_0) (ix2 i q) =
      if h : i.val < 15 then x (ix2 q ⟨i.val, h⟩) else Ideal.ofBits .f32 0x3F800000#32 := by
  rw [scatter2_apply]
  split
  · rename_i hi
    apply transpose_apply
    intro b
    match b with
    | ⟨0, _⟩ => rfl
    | ⟨1, _⟩ => rfl
  · rename_i hi
    rw [scatter1_apply, if_pos (by have := i.isLt; omega)]
    rfl

end Cert.ReferenceIdeal.RefInput
-- ==== Proof.RefTailRead.lean ====
/-
  The reference's tail read at an index: row 0 of an eight-row array, flattened.

  The tail takes the block of one row and 524288 columns at offset (0, 0) of an [8, 524288] array and casts it to the
  one-axis shape [524288]. A shape cast reads the operand at the index with the same row-major position: position `j` of
  the flat shape is position `0 * 524288 + j` of the [1, 524288] block, its index (0, j). A unit-stride slice reads the
  operand at the index shifted by the offsets: (0 + 0, 0 + j). So the result at `j` is the array at (0, j).
-/
import proofs.«144147_g2000302644600430_pallasbulk_23_7_alg».proof.ReferenceIdeal
import Idealize.ShloMosaic.Lib.Pipeline.Value
import Idealize.ShloMosaic.Lib.ValueIdx

noncomputable section

namespace Cert.ReferenceIdeal.RVal

open Idealize.ShloMosaic Idealize.ShloMosaic.ValueIdx Idealize.ShloMosaic.Pipeline
open Cert.ReferenceIdeal Cert.ReferenceIdeal.Facts₀

variable [Cert.ReferenceIdeal.Facts₀]

/-- Row 0 of an [8, 524288] array, sliced out as a [1, 524288] block and flattened to [524288], read at `j`, is the
array at (0, j). -/
theorem slice_reshape_apply {α : Type} (G : S8x524288.Idx → α) (j : S524288.Idx) :
    shapeCast S524288 (extractStridedSlice S1x524288 ![0, 0] G slices_S8x524288_S1x524288_0_0)
        shapeCasts_S1x524288_S524288 j
      = G (ix2 (0 : Fin 8) (j 0 : Fin 524288)) := by
  refine (shapeCast_apply _ _ j (ix2 (0 : Fin 1) (j 0 : Fin 524288)) ?_).trans ?_
  · -- the two row-major positions: 0 * 524288 + j and j
    refine (Shape.rowMajor_val_two _).trans (Eq.trans ?_ (Shape.rowMajor_val_one (d := ![524288]) j).symm)
    show 0 * 524288 + (j 0).val = (j 0).val
    omega
  · -- the slice at (0, j) is the array at (0 + 0, 0 + j)
    refine extractStridedSlice_apply _ _ _ _ (ix2 (0 : Fin 8) (j 0 : Fin 524288)) ?_
    intro a
    match a with
    | ⟨0, _⟩ => rfl
    | ⟨1, _⟩ => show (j 0).val = 0 + (j 0).val; omega

end Cert.ReferenceIdeal.RVal

end
-- ==== Proof.RefValue.lean ====
/-
  What the reference program returns, as one function of its two arguments.

  The host prepares a 16 x 524288 array from the batch `x` (524288 samples of 15 features): entry (i, n) is entry `i` of
  sample `n` extended by the rider, that is feature `i` for `i < 15` and the constant one at `i = 15`. The region cuts it
  into 256 blocks of 2048 samples and runs the body on each block with the whole packed weight array; the body stores,
  at row `p` and column `q`, output row `256 + p` of the packed array against the second hidden layer (hidden width 128)
  of column `q` of the block. Block `t`, column `q` is sample `2048 · t + q`, the 256 blocks tile the 8 x 524288 output
  array, so that array at (p, n) is output row `256 + p` against the hidden layers of sample `n`. The host then takes
  row 0 and flattens it: the result at position `n` is `Mlp.out 128` of sample `n` extended by the rider.

  The prepared array is a fold over every update index of two scatters; it is only ever read at an index, through its
  reading lemma, and every definitional step about a block is stated for an arbitrary array and then instantiated.
-/
import proofs.«144147_g2000302644600430_pallasbulk_23_7_alg».proof.Proof.RefPay
import proofs.«144147_g2000302644600430_pallasbulk_23_7_alg».proof.Proof.RefInput
import proofs.«144147_g2000302644600430_pallasbulk_23_7_alg».proof.Proof.RefTailRead
import Idealize.ShloMosaic.Lib.StableHlo.Run

noncomputable section

namespace Cert.ReferenceIdeal.RVal

open Idealize.ShloMosaic Idealize.ShloMosaic.ValueIdx Idealize.ShloMosaic.Pipeline Idealize.ShloMosaic.TcCoe
open Idealize.SL Idealize.SL.Sem
open Cert.ReferenceIdeal Cert.ReferenceIdeal.Gen

-- a scatter is a fold over every update index: below it is read at an index by its reading lemmas only
seal Host.scatter

section Casts
variable {T : BufTy} {Val : EltTy → Type}

/-- Contents carried to a buffer's own type and back are the contents. -/
theorem ofBuf_toBuf (x : StableHlo.TRef sig T) (v : T.Contents Val) : x.ofBuf (x.toBuf v) = v := by
  obtain ⟨r, h, h2, h3⟩ := x
  subst h
  rfl

/-- At a reference whose type is the value's by computation, carrying contents to the buffer's type is the identity, -/
theorem toBuf_of (r : Ref sig .tc) (h2 : r.space ≠ .host) (h3 : r.isScoped = false) (v : r.ty.Contents Val) :
    (StableHlo.TRef.of r rfl h2 h3).toBuf v = v := rfl
/-- and so is carrying them back. -/
theorem ofBuf_of (r : Ref sig .tc) (h2 : r.space ≠ .host) (h3 : r.isScoped = false) (v : r.ty.Contents Val) :
    (StableHlo.TRef.of r rfl h2 h3).ofBuf v = v := rfl
end Casts

variable (m : (ℓ : Loc nD τ sig) → Buf (Elt Ideal) ℓ) (ρ : Dev nD → PrngReg)

/-- The rider entry, as the program spells it. -/
abbrev onef : EReal := Ideal.ofBits .f32 0x3F800000#32

/-- Output row `p` of the packed array against the second hidden layer, at hidden width 128, of the extended sample `xa`. -/
def row (S : Cert.Mlp.SlabIdx → EReal) (xa : Fin 16 → EReal) (p : Fin 8) : EReal :=
  ∑ k : Fin 128, S (ix2 ⟨256 + p.val, by omega⟩ ⟨k.val, by omega⟩) * Cert.Mlp.hid2 128 le_rfl zf S xa ⟨k.val, by omega⟩

/-- Row 0 is the specification's output at width 128. -/
theorem row_zero (S : Cert.Mlp.SlabIdx → EReal) (xa : Fin 16 → EReal) : row S xa 0 = Cert.Mlp.out 128 le_rfl zf S xa := rfl

/-- The kernel's output array: entry (p, n) is output row `p` against the hidden layers of sample `n` extended by the rider. -/
def G1 (x : Cert.Mlp.XIdx → EReal) (S : Cert.Mlp.SlabIdx → EReal) : S8x524288.Idx → EReal := fun i =>
  row S (Cert.Mlp.aug onef x (i 1)) (i 0)

/-- The result: position `n` is the specification at width 128 of sample `n`. -/
def Gout (x : Cert.Mlp.XIdx → EReal) (S : Cert.Mlp.SlabIdx → EReal) : S524288.Idx → EReal := fun j =>
  Cert.Mlp.out 128 le_rfl zf S (Cert.Mlp.aug onef x (j 0))

/-- The output array spelt out: entry (p, n) is the sum over the 128 hidden units of output row `256 + p` times the second
    hidden layer of sample `n` extended by the rider. -/
theorem G1_apply (x : Cert.Mlp.XIdx → EReal) (S : Cert.Mlp.SlabIdx → EReal) (i : S8x524288.Idx) :
    G1 x S i = ∑ k : Fin 128, S (ix2 ⟨256 + (i 0).val, by have h : (i 0).val < 8 := (i 0).isLt; omega⟩ ⟨k.val, by omega⟩)
      * Cert.Mlp.hid2 128 le_rfl zf S (Cert.Mlp.aug onef x (i 1)) ⟨k.val, by omega⟩ := rfl

/-- The printed index maps over the grid: the prepared input's block `t` is column block `t`, the weights' block is the
    whole array, the output's block `t` is column block `t`. -/
theorem idx_facts : ∀ t : Fin cfg0.N, win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = t.val :=
  (by decide +kernel : ∀ t : Fin grid0.N, _)

/-- The prepared input as a function of the batch: zeros, row 15 overwritten by the constant one, rows 0 to 14 by the
    transposed batch (the host program's two scatters). -/
def xin (x : FVec Ideal S524288x15 .f32) : FVec Ideal S16x524288 .f32 :=
  Host.scatter scatter_S16x524288_S1_S15x524288_01_n_0_0 (fun _ b => b)
    (Host.scatter scatter_S16x524288_S1_S524288_0_0_0_0 (fun _ b => b)
      (broadcastInDim S16x524288 ![] Facts₀.bcast_S_S16x524288 (constant (F := Ideal) S_ .f32 0x00000000#32))
      (broadcastInDim S1 ![] Facts₀.bcast_S_S1 (constantI S_ 32 15#32))
      (broadcastInDim S524288 ![] Facts₀.bcast_S_S524288 (constant (F := Ideal) S_ .f32 0x3F800000#32)))
    (broadcastInDim S1 ![] Facts₀.bcast_S_S1 (constantI S_ 32 0#32))
    (transpose S15x524288 [1, 0] x Facts₀.transposes_S524288x15_S15x524288_1_0)

/-- The prepared input at (i, q): entry `i` of sample `q` extended by the rider. -/
theorem xin_at (x : FVec Ideal S524288x15 .f32) (i : Fin 16) (q : Fin 524288) :
    xin x (ix2 i q) = Cert.Mlp.aug onef x q i := by
  unfold xin
  exact Cert.ReferenceIdeal.RefInput.xin_apply x i q

/-- The region finds the prepared input of the batch as launched. -/
theorem V_v6 (c : Dev nD) : V m c main_call0_v6 = xin (m ((c : Thread nD τ).loc main_arg0)) := by
  show StableHlo.after hostOps0 (fun b => m (c, b)) (Proc.devRef .tc main_call0_v6) = _
  after_results
  repeat rw [ofBuf_toBuf]
  refine (toBuf_of main_call0_v6 _ _ _).trans ?_
  try rw [ofBuf_of main_arg0]
  unfold xin
  all_goals rfl

-- from here on the prepared input is read through `xin_at` only
seal xin

/-- A block of window 0, read off any array, is the array at the block's rectangle. -/
theorem read0 (A : S16x524288.Idx → EReal) (t : Fin cfg0.N) (y : S16x2048.Idx) :
    ((cfg0.win 0).blk t).view.read (Elt Ideal) A y = A (((cfg0.win 0).blk t).view.emb y) := rfl
/-- A block of window 1, read off any array. -/
theorem read1 (A : S264x128.Idx → EReal) (t : Fin cfg0.N) (y : S264x128.Idx) :
    ((cfg0.win 1).blk t).view.read (Elt Ideal) A y = A (((cfg0.win 1).blk t).view.emb y) := rfl

/-- The prepared input's block at a point is read off the prepared array, -/
theorem iblk0_eq (c : Dev nD) (t : Fin cfg0.N) :
    iblk m c 0 t = ((cfg0.win 0).blk t).view.read (Elt Ideal) (V m c main_call0_v6) := rfl
/-- the weights' block off the packed array. -/
theorem iblk1_eq (c : Dev nD) (t : Fin cfg0.N) :
    iblk m c 1 t = ((cfg0.win 1).blk t).view.read (Elt Ideal) (V m c main_arg1) := rfl

/-- Column `q` of block `t` of window 0 is column `2048 · t + q` of its array. -/
theorem emb0 (t : Fin cfg0.N) (i : Fin 16) (q : Fin 2048) (n : Fin 524288) (hn : n.val = t.val * 2048 + q.val) :
    ((cfg0.win 0).blk t).view.emb (ix2 i q) = ix2 i n := by
  obtain ⟨e0, e1, -⟩ := idx_facts t
  funext a; apply Fin.ext
  match a with
  | ⟨0, _⟩ => show win0_0.index t (0 : Fin 2) * 16 + 1 * i.val = i.val; omega
  | ⟨1, _⟩ => show win0_0.index t (1 : Fin 2) * 2048 + 1 * q.val = n.val; omega

/-- Window 1's block is the whole array. -/
theorem emb1 (t : Fin cfg0.N) (y : S264x128.Idx) : ((cfg0.win 1).blk t).view.emb y = y := by
  obtain ⟨-, -, e2, e3, -⟩ := idx_facts t
  funext a; apply Fin.ext
  match a with
  | ⟨0, _⟩ => show win0_1.index t (0 : Fin 2) * 264 + 1 * (y 0).val = (y 0).val; omega
  | ⟨1, _⟩ => show win0_1.index t (1 : Fin 2) * 128 + 1 * (y 1).val = (y 1).val; omega

/-- Entry `i` of column `q` of the prepared input's block `t` is entry `i` of sample `2048 · t + q` extended by the rider. -/
theorem blk0 (c : Dev nD) (t : Fin cfg0.N) (i : Fin 16) (q : Fin 2048) (n : Fin 524288) (hn : n.val = t.val * 2048 + q.val) :
    iblk m c 0 t (ix2 i q) = Cert.Mlp.aug onef (m ((c : Thread nD τ).loc main_arg0)) n i := by
  rw [iblk0_eq, V_v6, read0, emb0 t i q n hn, xin_at]

/-- The weights' block at every point is the packed array. -/
theorem blk1 (c : Dev nD) (t : Fin cfg0.N) (y : S264x128.Idx) :
    iblk m c 1 t y = m ((c : Thread nD τ).loc main_arg1) y := by
  rw [iblk1_eq, V_main_arg1, read1, emb1]

/-- The body's stored entry at any index of its block. -/
theorem pay_at (x0 : Vec Ideal S16x2048 .f32) (x1 : Vec Ideal S264x128 .f32) (y : S8x2048.Idx) :
    k0_pay1 (F := Ideal) (View.ld x0 r0_0) (View.ld x1 r0_1) (View.ld x1 r0_2) (View.ld x1 r0_3) y
      = row x1 (fun i => x0 (ix2 i (y 1 : Fin 2048))) (y 0 : Fin 8) := by
  have e : y = ix2 (y 0 : Fin 8) (y 1 : Fin 2048) := eq_ix2 y
  exact (congrArg (k0_pay1 (F := Ideal) (View.ld x0 r0_0) (View.ld x1 r0_1) (View.ld x1 r0_2) (View.ld x1 r0_3)) e).trans
    (pay_apply x0 x1 (y 0) (y 1))

/-- What a point writes back, for ANY blocks `x0`, `x1` and any array `G` that the body's stored block agrees with
    entry by entry: the block of `G` at the point. -/
theorem flushed_of (t : Fin cfg0.N) (x0 : Vec Ideal S16x2048 .f32) (x1 : Vec Ideal S264x128 .f32) (G : S8x524288.Idx → EReal)
    (h : ∀ j : S8x2048.Idx, k0_pay1 (F := Ideal) (View.ld x0 r0_0) (View.ld x1 r0_1) (View.ld x1 r0_2) (View.ld x1 r0_3) j
      = G (((cfg0.win 2).blk t).view.emb j)) :
    (cfg0.win 2).cut (grid0.coords t) (out0_2 x0 x1) = ((cfg0.win 2).blk t).view.read (Elt Ideal) G := by
  unfold out0_2
  rw [View.canon_unit_zero hz2]
  funext j
  exact h j

/-- WHAT POINT `t` WRITES BACK is block `t` of the array `G1` of the arguments. -/
theorem flushed_eq (c : Dev nD) (t : Fin cfg0.N) :
    (dats m 0 c).flushed 2 t = ((cfg0.win 2).blk t).view.read (Elt Ideal)
      (G1 (m ((c : Thread nD τ).loc main_arg0)) (m ((c : Thread nD τ).loc main_arg1))) := by
  show (cfg0.win 2).cut (grid0.coords t) ((dats m 0 c).after 2 t) = _
  rw [after0_2]
  refine flushed_of t (iblk m c 0 t) (iblk m c 1 t) _ (fun j => ?_)
  refine (pay_at (iblk m c 0 t) (iblk m c 1 t) j).trans ?_
  obtain ⟨-, -, -, -, e4, e5⟩ := idx_facts t
  have hj0 : (j 0).val < 8 := (j 0).isLt
  have hj1 : (j 1).val < 2048 := (j 1).isLt
  unfold G1
  have hS : iblk m c 1 t = m ((c : Thread nD τ).loc main_arg1) := funext (blk1 m c t)
  rw [hS]
  have e0 : (((cfg0.win 2).blk t).view.emb j 0).val = (j 0).val := by
    show win0_2.index t (0 : Fin 2) * 8 + 1 * (j 0).val = (j 0).val; omega
  have e1 : (((cfg0.win 2).blk t).view.emb j 1).val = t.val * 2048 + (j 1).val := by
    show win0_2.index t (1 : Fin 2) * 2048 + 1 * (j 1).val = t.val * 2048 + (j 1).val; omega
  have hx : (fun i => iblk m c 0 t (ix2 i (j 1 : Fin 2048)))
      = Cert.Mlp.aug onef (m ((c : Thread nD τ).loc main_arg0)) (((cfg0.win 2).blk t).view.emb j 1) :=
    funext fun i => blk0 m c t i (j 1) (((cfg0.win 2).blk t).view.emb j 1) e1
  rw [hx]
  exact congrArg (row (m ((c : Thread nD τ).loc main_arg1)) (Cert.Mlp.aug onef (m ((c : Thread nD τ).loc main_arg0)) (((cfg0.win 2).blk t).view.emb j 1))) (Fin.ext e0.symm)

/-- An index of the output array is in point `t`'s block iff each coordinate is in the block's range on its axis. -/
theorem mem_blk (t : Fin cfg0.N) (i : S8x524288.Idx) :
    i ∈ ((cfg0.win 2).blk t).view.set ↔ ∀ a : Fin 2, win0_2.index t a * S8x2048.size a ≤ (i a).val
      ∧ (i a).val < win0_2.index t a * S8x2048.size a + S8x2048.size a := by
  show i ∈ ((View.whole main_call0_v7).slice (win0_2.rect t)).set ↔ _
  rw [View.set_slice_whole, Rect.mem_set_unit]
  exact Iff.rfl

/-- Every index of the output array is in the block of the point its column block names. -/
theorem cover (i : S8x524288.Idx) :
    ∃ t : Fin cfg0.N, (cfg0.win 2).flush t = true ∧ i ∈ ((cfg0.win 2).blk t).view.set := by
  have h0 : (i 0).val < 8 := (i 0).isLt
  have h1 : (i 1).val < 524288 := (i 1).isLt
  have hN : cfg0.N = 256 := N_0
  obtain ⟨t0, ht0⟩ : ∃ t0 : Fin cfg0.N, t0.val = (i 1).val / 2048 := ⟨⟨(i 1).val / 2048, by rw [hN]; omega⟩, rfl⟩
  refine ⟨t0, flush0_2 t0, ?_⟩
  rw [mem_blk]
  obtain ⟨-, -, -, -, e4, e5⟩ := idx_facts t0
  intro a
  match a with
  | ⟨0, _⟩ =>
    show win0_2.index t0 (0 : Fin 2) * 8 ≤ (i 0).val ∧ (i 0).val < win0_2.index t0 (0 : Fin 2) * 8 + 8
    rw [e4]; constructor <;> omega
  | ⟨1, _⟩ =>
    show win0_2.index t0 (1 : Fin 2) * 2048 ≤ (i 1).val ∧ (i 1).val < win0_2.index t0 (1 : Fin 2) * 2048 + 2048
    rw [e5, ht0]; constructor <;> omega

/-- THE OUTPUT ARRAY after the run is `G1` of the arguments. -/
theorem final (c : Dev nD) : (dats m 0 c).arrAt 2 cfg0.N
    = G1 (m ((c : Thread nD τ).loc main_arg0)) (m ((c : Thread nD τ).loc main_arg1)) :=
  (dats m 0 c).arrAt_eq_of_cover 2 _ (fun t _ => flushed_eq m c t) cover

/-- After the region the host takes row 0 of the output array and flattens it: position `n` is the specification at
    width 128 of sample `n`. -/
theorem tail_eq (c : Dev nD) : Pipeline.afterTail₀ cfgs (dats m) 0 (V0 m) [hostOps1] c main_v0
    = Gout (m ((c : Thread nD τ).loc main_arg0)) (m ((c : Thread nD τ).loc main_arg1)) := by
  unfold Pipeline.afterTail₀
  show StableHlo.after hostOps1 _ (Proc.devRef .tc main_v0) = _
  after_results
  have hA : withArrays (cfgs 0).spec c (V0 m c) (fun w => (dats m 0 c).arrAt w (cfgs 0).N) (Proc.devRef .tc main_call0_v7)
      = G1 (m ((c : Thread nD τ).loc main_arg0)) (m ((c : Thread nD τ).loc main_arg1)) :=
    (Pipeline.withArrays_arr spec0 launch0.win.arr_inj c _ _ 2).trans (final m c)
  funext j
  show shapeCast S524288 (extractStridedSlice S1x524288 ![0, 0]
      (withArrays (cfgs 0).spec c (V0 m c) (fun w => (dats m 0 c).arrAt w (cfgs 0).N) (Proc.devRef .tc main_call0_v7))
      Facts₀.slices_S8x524288_S1x524288_0_0) Facts₀.shapeCasts_S1x524288_S524288 j = _
  rw [hA]
  refine (slice_reshape_apply _ j).trans ?_
  exact row_zero _ _

/-- THE RUN, READ: every weakly fair execution of the reference program terminates with the result at `Gout` of the
    arguments and the arguments unchanged. -/
theorem run : θ_run defs (onTc (τ := τ) (main (F := Ideal))) ⟨m, fun _ => 0, ρ⟩ fun r => ∀ c : Dev nD,
      r.2.mem ((c : Thread nD τ).loc main_v0) = Gout (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
    ⟨((h c).2 main_v0 (Pipeline.mem_restRefs_of main_v0 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c)))⟩)
    (run_main m ρ)

end Cert.ReferenceIdeal.RVal

end
-- ==== Proof.Width.lean ====
/-
  The width lemma: summing the second and third layers over 40 hidden units or over all 128 lanes gives the same output
  when the lanes from 33 on of the rows from 128 on of the packed array are zero.

  Every summand whose lane index is at least 33 is a product whose left factor is such a zero entry, and zero times any
  extended real is zero. So the sum over `Fin 128` drops to the sum over `Fin 40` (the terms with index at least 40 vanish),
  first in every second-layer unit, then in the output. Only the additive commutative monoid structure of the extended
  reals and `0 * a = 0` are used: no finiteness, no subtraction.
-/
import proofs.«144147_g2000302644600430_pallasbulk_23_7_alg».proof.Proof.Spec

noncomputable section

namespace Cert.Mlp

open Idealize.ShloMosaic Idealize.ShloMosaic.ValueIdx

/-- In an additive commutative monoid, a sum over `Fin n` of a function vanishing at every index `≥ m` (with `m ≤ n`)
equals the sum over `Fin m` of its restriction along the inclusion `Fin m → Fin n`. -/
theorem sum_fin_castLE {M : Type*} [AddCommMonoid M] {m n : ℕ} (h : m ≤ n) (f : Fin n → M)
    (hz : ∀ k : Fin n, m ≤ k.val → f k = 0) :
    ∑ k : Fin n, f k = ∑ k : Fin m, f (Fin.castLE h k) := by
  symm
  refine Finset.sum_of_injOn (Fin.castLE h) ?_ ?_ ?_ ?_
  · intro a _ b _ hab
    exact Fin.castLE_injective h hab
  · intro a _
    exact Finset.mem_coe.mpr (Finset.mem_univ _)
  · intro i _ hi
    apply hz
    by_contra hlt
    apply hi
    refine ⟨⟨i.val, by omega⟩, Finset.mem_coe.mpr (Finset.mem_univ _), ?_⟩
    exact Fin.ext rfl
  · intro i _
    rfl

/-- A padded entry times anything is zero: for a row `r ≥ 128` and a lane `c ≥ 33` the product `S[r, c] * a` vanishes. -/
theorem pad_mul (S : SlabIdx → EReal)
    (hpad : ∀ (r : Fin 264) (c : Fin 128), 128 ≤ r.val → 33 ≤ c.val → S (ix2 r c) = 0)
    (r : Fin 264) (c : Fin 128) (hr : 128 ≤ r.val) (hc : 33 ≤ c.val) (a : EReal) :
    S (ix2 r c) * a = 0 := by
  rw [hpad r c hr hc, zero_mul]

/-- Every second-layer unit is the same whether it sums over 128 lanes or over 40 hidden units: the row `128 + k` of
the packed array is zero from lane 33 on. -/
theorem hid2_width (z : EReal) (S : SlabIdx → EReal) (xa : Fin 16 → EReal)
    (hpad : ∀ (r : Fin 264) (c : Fin 128), 128 ≤ r.val → 33 ≤ c.val → S (ix2 r c) = 0)
    (k : Fin 128) :
    hid2 128 le_rfl z S xa k = hid2 40 (by omega) z S xa k := by
  unfold hid2
  congr 1
  rw [sum_fin_castLE (show 40 ≤ 128 by omega)]
  · rfl
  · intro l hl
    exact pad_mul S hpad _ _ (by simp) (by simp; omega) _

/-- The output is the same for hidden width 128 and hidden width 40 when the padding of the packed array is zero. -/
theorem out_width (z : EReal) (S : SlabIdx → EReal) (xa : Fin 16 → EReal)
    (hpad : ∀ (r : Fin 264) (c : Fin 128), 128 ≤ r.val → 33 ≤ c.val → S (ix2 r c) = 0) :
    out 128 le_rfl z S xa = out 40 (by omega) z S xa := by
  unfold out
  rw [sum_fin_castLE (show 40 ≤ 128 by omega)]
  · refine Finset.sum_congr rfl fun k _ => ?_
    rw [hid2_width z S xa hpad]
    rfl
  · intro k hk
    exact pad_mul S hpad _ _ (by simp) (by simp; omega) _

end Cert.Mlp

end
-- ==== Proof.SlabPadding.lean ====
/-
  Decoding the precondition: the padding of the packed weight array is zero.

  The precondition is a conjunction of three "all elements satisfy" tests, each an `and`-reduction of an array of one-bit
  comparison results down to a single bit, and the claim is that the conjunction is 1. The third test compares the block
  of the packed array made of rows 128..263 and lanes 33..127 (136 rows of 95 lanes, offset (128, 33)) with the constant
  zero, elementwise, for equality. Reading the chain backwards:

    * a one-bit `and` is 1 only when both operands are 1, so the third reduction is 1;
    * an `and`-reduction over all axes that is 1 met a 1 at every index, in particular at (r - 128, c - 33);
    * on the extended reals the ordered-equal comparison is 1 only when its two arguments are equal;
    * the block at (r - 128, c - 33) is the array at (128 + (r - 128), 33 + (c - 33)) = (r, c), and the constant is 0.

  Hence `S[r, c] = 0` for every row `r ≥ 128` and lane `c ≥ 33`.
-/
import proofs.«144147_g2000302644600430_pallasbulk_23_7_alg».proof.Pre_finite_inputs
import Idealize.ShloMosaic.Lib.ReduceAll
import Idealize.ShloMosaic.Lib.Affine
import Idealize.ShloMosaic.Lib.ValueIdx
import Idealize.ShloMosaic.Lib.IdealHost

noncomputable section

namespace Cert.Slab

open Idealize.ShloMosaic Idealize.ShloMosaic.ValueIdx
open Cert.Pre_finite_inputs

variable [Cert.Pre_finite_inputs.Facts]

/-- A rank-0 shape has exactly one index (the empty function). -/
instance subsingleton_scalarIdx : Subsingleton S_.Idx := ⟨fun a b => funext fun d => d.elim0⟩

/-- On the extended reals the ordered-equal comparison yields the bit 1 only for equal arguments. -/
theorem cmp_oeq_eq_one {a b : EReal} (h : Ideal.cmp .oeq a b = 1#1) : a = b := by
  unfold Ideal.cmp at h
  by_contra hne
  simp [hne] at h

/-- The block of 136 rows and 95 lanes at offset (128, 33), read at (r - 128, c - 33), is the array read at (r, c):
`128 + (r - 128) = r` and `33 + (c - 33) = c` for `r ≥ 128`, `c ≥ 33`. -/
theorem slice_index (r : Fin 264) (c : Fin 128) (hr : 128 ≤ r.val) (hc : 33 ≤ c.val)
    (slab : FVec Ideal S264x128 .f32) (hs : S264x128.Slices ![128, 33] S136x95) :
    extractStridedSlice S136x95 ![128, 33] slab hs (ix2 ⟨r.val - 128, by omega⟩ ⟨c.val - 33, by omega⟩)
      = slab (ix2 r c) := by
  unfold extractStridedSlice
  congr 1
  funext a
  match a with
  | ⟨0, _⟩ => exact Fin.ext (show 128 + (r.val - 128) = r.val by omega)
  | ⟨1, _⟩ => exact Fin.ext (show 33 + (c.val - 33) = c.val by omega)

/-- Under the precondition every entry of the packed array in a row `r ≥ 128` and a lane `c ≥ 33` is zero. -/
theorem pad_zero (x : FVec Ideal S524288x15 .f32) (slab : FVec Ideal S264x128 .f32)
    (h : fn (F := Ideal) x slab = fun _ => 1#1)
    (r : Fin 264) (c : Fin 128) (hr : 128 ≤ r.val) (hc : 33 ≤ c.val) : slab (ix2 r c) = 0 := by
  -- the single bit of the conjunction is 1
  have h0 := congrFun h ValueIdx.ix0
  dsimp only [fn] at h0
  -- so its last conjunct, the reduction of the equality tests over the block, is 1
  obtain ⟨_, h12⟩ := IntOp.andi_eq_one.1 h0
  -- so the test at (r - 128, c - 33) is 1
  have hel := Host.reduce_andi_all _ _ _ _ _ h12 (ix2 ⟨r.val - 128, by omega⟩ ⟨c.val - 33, by omega⟩)
  rw [cmpf_apply] at hel
  -- so the block entry there equals the constant, which is 0, and the block entry is S[r, c]
  have he := cmp_oeq_eq_one hel
  rw [broadcastInDim_scalar_apply, constant_apply, Ideal.ofBits_zero_f32, slice_index r c hr hc] at he
  exact he

end Cert.Slab

end
-- ==== Proof.Claims.lean ====
/-
  The five claims.

  The three frames are the programs' generated frame proofs. The idealization rewrote nothing, so it preserves the
  kernel's text trivially. For the equivalence of the two idealized programs: the kernel's program returns, at
  position n, the three-layer value of sample n summed over 40 hidden units (KernelValue), the reference's the same
  value summed over all 128 lanes (RefValue); the precondition says the weight array's lanes from 33 on are zero in its
  second- and third-layer rows (SlabPadding), and then the two widths give one value (Width), at every extended real
  input.
-/
import proofs.«144147_g2000302644600430_pallasbulk_23_7_alg».proof.Defs
import proofs.«144147_g2000302644600430_pallasbulk_23_7_alg».proof.Proof.Gen.Kernel.Frame
import proofs.«144147_g2000302644600430_pallasbulk_23_7_alg».proof.Proof.Gen.Pre_finite_inputs
import proofs.«144147_g2000302644600430_pallasbulk_23_7_alg».proof.Proof.KernelValue
import proofs.«144147_g2000302644600430_pallasbulk_23_7_alg».proof.Proof.RefValue
import proofs.«144147_g2000302644600430_pallasbulk_23_7_alg».proof.Proof.Width
import proofs.«144147_g2000302644600430_pallasbulk_23_7_alg».proof.Proof.SlabPadding

noncomputable section

namespace Cert.Proof.Claims

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.Gen.frame m ρ

/-- The idealization's ledger is empty. -/
theorem preserves : Cert.preserves_Kernel_KernelIdeal := trivial

/-- Under the precondition the two programs' results are one function of the arguments: the padding lanes of the
    weight array are zero, so summing over 128 lanes or over the first 40 is the same. -/
theorem width_eq (x : Cert.Mlp.XIdx → EReal) (S : Cert.Mlp.SlabIdx → EReal)
    (h : Cert.Pre_finite_inputs.fn (F := Ideal) x S = fun _ => 1#1) :
    Cert.ReferenceIdeal.RVal.Gout x S = Cert.KernelIdeal.KVal.Gout x S :=
  funext fun _ => Cert.Mlp.out_width _ S _ (fun r c hr hc => Cert.Slab.pad_zero x S h r c hr hc)

/-- From memories agreeing on the arguments both idealized programs run, end with equal results and leave the
    arguments unchanged. -/
theorem algebraic : Cert.algebraic_KernelIdeal_ReferenceIdeal := by
  intro m ρ m' ρ' hpre hagree
  refine ⟨fun c => Cert.KernelIdeal.KVal.Gout (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.KVal.run m ρ, ?_⟩
  refine (θ_run Cert.ReferenceIdeal.defs _ _).mono (fun r h c => ⟨?_, (h c).2.1, (h c).2.2⟩)
    (Cert.ReferenceIdeal.RVal.run m' ρ')
  rw [(h c).1, (hagree c).1, (hagree c).2]
  exact width_eq _ _ (hpre c)

end Cert.Proof.Claims

end
-- ==== Proof.lean ====
/-
  Two programs compute the value head of a three-layer perceptron (15 inputs, two rectified hidden layers, one output)
  over a batch of 524288 samples, from one packed array holding the three transposed weight matrices with the biases
  carried by a constant rider entry. One sums over 40 hidden units per layer, the other over all 128 lanes of the packed
  array; they agree whenever the lanes beyond the 33 used ones are zero, which the precondition states. The pieces:

    Spec          the common function, with the hidden width as a parameter
    Width         the two widths agree when the padding lanes are zero
    SlabPadding   the precondition gives the zero padding lanes
    LibMatmul2, LibMlp3   a matrix product, and three of them with rectifications, read at an index
    KernelPay, KernelValue   what the first program's body stores, and what the program returns
    LibScatterSet, RefInput  an overwriting scatter read at an index, and the second program's prepared input
    RefPay, RefValue         what the second program's body stores, and what the program returns
    Claims        the five claims
-/
import proofs.«144147_g2000302644600430_pallasbulk_23_7_alg».proof.Defs
import proofs.«144147_g2000302644600430_pallasbulk_23_7_alg».proof.Proof.Claims
import proofs.«144147_g2000302644600430_pallasbulk_23_7_alg».proof.Proof.Gen.Kernel
import proofs.«144147_g2000302644600430_pallasbulk_23_7_alg».proof.Proof.Gen.KernelIdeal
import proofs.«144147_g2000302644600430_pallasbulk_23_7_alg».proof.Proof.Gen.ReferenceIdeal
import proofs.«144147_g2000302644600430_pallasbulk_23_7_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
